-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S100000x64 : Shape := ⟨2, ![100000, 64]⟩
abbrev S200000x4 : Shape := ⟨2, ![200000, 4]⟩
abbrev S1500000 : Shape := ⟨1, ![1500000]⟩
abbrev S70x64 : Shape := ⟨2, ![70, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S200000x4 : S_.BroadcastsInDim S200000x4 (![] : Fin 0 → Fin S200000x4.rank)
  reducesTo_S200000x4_S_d0_1 : S200000x4.ReducesTo [0, 1] S_
  bcast_S_S70x64 : S_.BroadcastsInDim S70x64 (![] : Fin 0 → Fin S70x64.rank)
  reducesTo_S70x64_S_d0_1 : S70x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64 .f32) (main_arg10 : FVec F S64x64 .f32) (main_arg11 : FVec F S64 .f32) (main_arg12 : FVec F S64x1 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_v48 main_v49 main_v50

def fn_part1 {F : FTy → Type} [FloatOps F] (main_arg6 : FVec F S70x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_v13 : IVec S_ 1) (main_v16 : IVec S200000x4 1) : IVec S_ 1 :=
  let main_c_5 : IVec S_ 1 := constantI S_ 1 1#1
  let main_v17 : IVec S_ 1 := (fun x v => Host.reduce IntOp.andi x v reducesTo_S200000x4_S_d0_1 h_S_) main_v16 main_c_5
  let main_v18 : IVec S_ 1 := andi main_v13 main_v17
  let main_v19 : FVec F S70x64 .f32 := Host.absf main_arg6
  let main_cst_6 : FVec F S_ .f32 := constant S_ .f32 0x7F800000#32
  let main_v20 : FVec F S70x64 .f32 := broadcastInDim S70x64 ![] bcast_S_S70x64 main_cst_6
  let main_v21 : IVec S70x64 1 := cmpf .olt main_v19 main_v20
  let main_c_7 : IVec S_ 1 := constantI S_ 1 1#1
  let main_v22 : IVec S_ 1 := (fun x v => Host.reduce IntOp.andi x v reducesTo_S70x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x4 .f32) (main_arg1 : FVec F S100000x64 .f32) (main_arg2 : FVec F S100000x4 .f32) (main_arg3 : FVec F S200000x4 .f32) (main_arg4 : IVec S1500000 32) (main_arg5 : IVec S1500000 32) (main_arg6 : FVec F S70x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x4 .f32 := Host.absf main_arg2
  let main_cst_2 : FVec F S_ .f32 := constant S_ .f32 0x7F800000#32
  let main_v10 : FVec F S100000x4 .f32 := broadcastInDim S100000x4 ![] bcast_S_S100000x4 main_cst_2
  let main_v11 : IVec S100000x4 1 := cmpf .olt main_v9 main_v10
  let main_c_3 : IVec S_ 1 := constantI S_ 1 1#1
  let main_v12 : IVec S_ 1 := (fun x v => Host.reduce IntOp.andi x v reducesTo_S100000x4_S_d0_1 h_S_) main_v11 main_c_3
  let main_v13 : IVec S_ 1 := andi main_v8 main_v12
  let main_v14 : FVec F S200000x4 .f32 := Host.absf main_arg3
  let main_cst_4 : FVec F S_ .f32 := constant S_ .f32 0x7F800000#32
  let main_v15 : FVec F S200000x4 .f32 := broadcastInDim S200000x4 ![] bcast_S_S200000x4 main_cst_4
  let main_v16 : IVec S200000x4 1 := cmpf .olt main_v14 main_v15
  fn_part1 (F := F) main_arg6 main_arg7 main_arg8 main_arg9 main_arg10 main_arg11 main_arg12 main_arg13 main_v13 main_v16
-- ==== Kernel.lean ====
abbrev S100000x4 : Shape := ⟨2, ![100000, 4]⟩
abbrev S100000x64 : Shape := ⟨2, ![100000, 64]⟩
abbrev S200000x4 : Shape := ⟨2, ![200000, 4]⟩
abbrev S1500000 : Shape := ⟨1, ![1500000]⟩
abbrev S70x64 : Shape := ⟨2, ![70, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x3 : Shape := ⟨2, ![100000, 3]⟩
abbrev S200000x3 : Shape := ⟨2, ![200000, 3]⟩
abbrev S_ : Shape := ⟨0, ![]⟩
abbrev S1500000x1 : Shape := ⟨2, ![1500000, 1]⟩
abbrev S1500000x64 : Shape := ⟨2, ![1500000, 64]⟩
abbrev S1500000x3 : Shape := ⟨2, ![1500000, 3]⟩
abbrev S1500000x6 : Shape := ⟨2, ![1500000, 6]⟩
abbrev S6x64 : Shape := ⟨2, ![6, 64]⟩
abbrev S1x64 : Shape := ⟨2, ![1, 64]⟩
abbrev S1x1 : Shape := ⟨2, ![1, 1]⟩
abbrev S10000x64 : Shape := ⟨2, ![10000, 64]⟩
abbrev S10000x6 : Shape := ⟨2, ![10000, 6]⟩
abbrev S10000x1 : Shape := ⟨2, ![10000, 1]⟩
abbrev S200000 : Shape := ⟨1, ![200000]⟩

abbrev nBuf : Space → Nat
  | .hbm => 87
  | .vmem => 15
  | .smem => 0
  | _ => 0

abbrev bufTy : (tb : Table) → Fin (tcTables nBuf tb) → BufTy
  | .hbm, ⟨0, _⟩ => ⟨S100000x4, .f32⟩
  | .hbm, ⟨1, _⟩ => ⟨S100000x64, .f32⟩
  | .hbm, ⟨2, _⟩ => ⟨S100000x4, .f32⟩
  | .hbm, ⟨3, _⟩ => ⟨S200000x4, .f32⟩
  | .hbm, ⟨4, _⟩ => ⟨S1500000, .i32⟩
  | .hbm, ⟨5, _⟩ => ⟨S1500000, .i32⟩
  | .hbm, ⟨6, _⟩ => ⟨S70x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S100000x3, .f32⟩
  | .hbm, ⟨15, _⟩ => ⟨S200000x3, .f32⟩
  | .hbm, ⟨16, _⟩ => ⟨S100000x3, .f32⟩
  | .hbm, ⟨17, _⟩ => ⟨S100000x64, .bf16⟩
  | .hbm, ⟨18, _⟩ => ⟨S100000x3, .bf16⟩
  | .hbm, ⟨19, _⟩ => ⟨S_, .i32⟩
  | .hbm, ⟨20, _⟩ => ⟨S1500000, .i32⟩
  | .hbm, ⟨21, _⟩ => ⟨S1500000, .i1⟩
  | .hbm, ⟨22, _⟩ => ⟨S_, .i32⟩
  | .hbm, ⟨23, _⟩ => ⟨S1500000, .i32⟩
  | .hbm, ⟨24, _⟩ => ⟨S1500000, .i32⟩
  | .hbm, ⟨25, _⟩ => ⟨S1500000, .i32⟩
  | .hbm, ⟨26, _⟩ => ⟨S1500000x1, .i32⟩
  | .hbm, ⟨27, _⟩ => ⟨S1500000x64, .bf16⟩
  | .hbm, ⟨28, _⟩ => ⟨S_, .i32⟩
  | .hbm, ⟨29, _⟩ => ⟨S1500000, .i32⟩
  | .hbm, ⟨30, _⟩ => ⟨S1500000, .i1⟩
  | .hbm, ⟨31, _⟩ => ⟨S_, .i32⟩
  | .hbm, ⟨32, _⟩ => ⟨S1500000, .i32⟩
  | .hbm, ⟨33, _⟩ => ⟨S1500000, .i32⟩
  | .hbm, ⟨34, _⟩ => ⟨S1500000, .i32⟩
  | .hbm, ⟨35, _⟩ => ⟨S1500000x1, .i32⟩
  | .hbm, ⟨36, _⟩ => ⟨S1500000x3, .f32⟩
  | .hbm, ⟨37, _⟩ => ⟨S_, .i32⟩
  | .hbm, ⟨38, _⟩ => ⟨S1500000, .i32⟩
  | .hbm, ⟨39, _⟩ => ⟨S1500000, .i1⟩
  | .hbm, ⟨40, _⟩ => ⟨S_, .i32⟩
  | .hbm, ⟨41, _⟩ => ⟨S1500000, .i32⟩
  | .hbm, ⟨42, _⟩ => ⟨S1500000, .i32⟩
  | .hbm, ⟨43, _⟩ => ⟨S1500000, .i32⟩
  | .hbm, ⟨44, _⟩ => ⟨S1500000x1, .i32⟩
  | .hbm, ⟨45, _⟩ => ⟨S1500000x3, .f32⟩
  | .hbm, ⟨46, _⟩ => ⟨S1500000x3, .f32⟩
  | .hbm, ⟨47, _⟩ => ⟨S_, .i32⟩
  | .hbm, ⟨48, _⟩ => ⟨S1500000, .i32⟩
  | .hbm, ⟨49, _⟩ => ⟨S1500000, .i1⟩
  | .hbm, ⟨50, _⟩ => ⟨S_, .i32⟩
  | .hbm, ⟨51, _⟩ => ⟨S1500000, .i32⟩
  | .hbm, ⟨52, _⟩ => ⟨S1500000, .i32⟩
  | .hbm, ⟨53, _⟩ => ⟨S1500000, .i32⟩
  | .hbm, ⟨54, _⟩ => ⟨S1500000x1, .i32⟩
  | .hbm, ⟨55, _⟩ => ⟨S1500000x3, .bf16⟩
  | .hbm, ⟨56, _⟩ => ⟨S1500000x3, .bf16⟩
  | .hbm, ⟨57, _⟩ => ⟨S1500000x6, .bf16⟩
  | .hbm, ⟨58, _⟩ => ⟨S64x64, .f32⟩
  | .hbm, ⟨59, _⟩ => ⟨S6x64, .f32⟩
  | .hbm, ⟨60, _⟩ => ⟨S1x64, .f32⟩
  | .hbm, ⟨61, _⟩ => ⟨S1x64, .f32⟩
  | .hbm, ⟨62, _⟩ => ⟨S1x64, .f32⟩
  | .hbm, ⟨63, _⟩ => ⟨S1x1, .f32⟩
  | .hbm, ⟨64, _⟩ => ⟨S1500000x1, .f32⟩
  | .hbm, ⟨65, _⟩ => ⟨S1500000, .f32⟩
  | .hbm, ⟨66, _⟩ => ⟨S_, .f32⟩
  | .hbm, ⟨67, _⟩ => ⟨S200000, .f32⟩
  | .hbm, ⟨68, _⟩ => ⟨S1500000x1, .i32⟩
  | .hbm, ⟨69, _⟩ => ⟨S200000, .f32⟩
  | .hbm, ⟨70, _⟩ => ⟨S_, .f32⟩
  | .hbm, ⟨71, _⟩ => ⟨S1500000, .f32⟩
  | .hbm, ⟨72, _⟩ => ⟨S_, .f32⟩
  | .hbm, ⟨73, _⟩ => ⟨S200000, .f32⟩
  | .hbm, ⟨74, _⟩ => ⟨S1500000x1, .i32⟩
  | .hbm, ⟨75, _⟩ => ⟨S200000, .f32⟩
  | .hbm, ⟨76, _⟩ => ⟨S_, .f32⟩
  | .hbm, ⟨77, _⟩ => ⟨S200000, .f32⟩
  | .hbm, ⟨78, _⟩ => ⟨S200000, .i1⟩
  | .hbm, ⟨79, _⟩ => ⟨S_, .f32⟩
  | .hbm, ⟨80, _⟩ => ⟨S200000, .f32⟩
  | .hbm, ⟨81, _⟩ => ⟨S200000, .f32⟩
  | .hbm, ⟨82, _⟩ => ⟨S200000, .f32⟩
  | .hbm, ⟨83, _⟩ => ⟨S_, .f32⟩
  | .hbm, ⟨84, _⟩ => ⟨S_, .f32⟩
  | .hbm, ⟨85, _⟩ => ⟨S200000, .f32⟩
  | .hbm, ⟨86, _⟩ => ⟨S200000, .f32⟩
  | .local _ .vmem, ⟨0, _⟩ => ⟨S10000x64, .bf16⟩
  | .local _ .vmem, ⟨1, _⟩ => ⟨S10000x64, .bf16⟩
  | .local _ .vmem, ⟨2, _⟩ => ⟨S10000x6, .bf16⟩
  | .local _ .vmem, ⟨3, _⟩ => ⟨S10000x6, .bf16⟩
  | .local _ .vmem, ⟨4, _⟩ => ⟨S64x64, .f32⟩
  | .local _ .vmem, ⟨5, _⟩ => ⟨S6x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S64x1, .f32⟩
  | .local _ .vmem, ⟨12, _⟩ => ⟨S1x1, .f32⟩
  | .local _ .vmem, ⟨13, _⟩ => ⟨S10000x1, .f32⟩
  | .local _ .vmem, ⟨14, _⟩ => ⟨S10000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_call0_v0 : Ref sig .tc := ⟨.hbm, 84, rfl⟩
abbrev main_call0_v1 : Ref sig .tc := ⟨.hbm, 85, rfl⟩
abbrev main_v56 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x6 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S10000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S100000x4_S100000x3_0_1 : S100000x4.Slices ![0, 1] S100000x3
  slices_S200000x4_S200000x3_0_1 : S200000x4.Slices ![0, 1] S200000x3
  bitsLt_bf16_f32 : FTy.bits .bf16 < FTy.bits .f32
  bcast_S_S1500000 : S_.BroadcastsInDim S1500000 (![] : Fin 0 → Fin S1500000.rank)
  bcast_S1500000_S1500000x1_0 : S1500000.BroadcastsInDim S1500000x1 (![0] : Fin 1 → Fin S1500000x1.rank)
  concatenates_S1500000x3_S1500000x3_S1500000x6_d1 : Shape.Concatenates [S1500000x3, S1500000x3] S1500000x6 1
  slices_S70x64_S64x64_0_0 : S70x64.Slices ![0, 0] S64x64
  slices_S70x64_S6x64_64_0 : S70x64.Slices ![64, 0] S6x64
  shapeCasts_S64_S1x64 : S64.ShapeCasts S1x64
  shapeCasts_S1_S1x1 : S1.ShapeCasts S1x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x6_S10000x6_0_0 : ∀ a, (![0, 0] : Fin 2 → Nat) a + S10000x6.size a ≤ S10000x6.size a
  h_S10000x6 : 0 < S10000x6.numel
  shapeCasts_S10000x6_S10000x6 : S10000x6.ShapeCasts S10000x6
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S6x64_S6x64_0_0 : ∀ a, (![0, 0] : Fin 2 → Nat) a + S6x64.size a ≤ S6x64.size a
  h_S6x64 : 0 < S6x64.numel
  shapeCasts_S6x64_S6x64 : S6x64.ShapeCasts S6x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S1500000x1_S1500000 : S1500000x1.ShapeCasts S1500000
  bcast_S_S200000 : S_.BroadcastsInDim S200000 (![] : Fin 0 → Fin S200000.rank)
  gather_S100000x64_S1500000x1_S1500000x64_1_0_n_n_0_1_164_wf : GatherDims.WF S100000x64 S1500000x1 S1500000x64 [1] [0] [] [0] [] 1 ![1, 64]
  gather_S200000x3_S1500000x1_S1500000x3_1_0_n_n_0_1_13_wf : GatherDims.WF S200000x3 S1500000x1 S1500000x3 [1] [0] [] [0] [] 1 ![1, 3]
  gather_S100000x3_S1500000x1_S1500000x3_1_0_n_n_0_1_13_wf : GatherDims.WF S100000x3 S1500000x1 S1500000x3 [1] [0] [] [0] [] 1 ![1, 3]
  dot_S10000x64_S64x64_S10000x64_1_0_0_1_n_n_wf : DotDims.WF S10000x64 S64x64 S10000x64 [1] [0] [0] [1] [] []
  dot_S10000x6_S6x64_S10000x64_1_0_0_1_n_n_wf : DotDims.WF S10000x6 S6x64 S10000x64 [1] [0] [0] [1] [] []
  dot_S10000x64_S64x1_S10000x1_1_0_0_1_n_n_wf : DotDims.WF S10000x64 S64x1 S10000x1 [1] [0] [0] [1] [] []
  scatter_S200000_S1500000x1_S1500000_n_0_0_1_wf : ScatterDims.WF S200000 S1500000x1 S1500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1500000x64.size a
  hwx0_0 : ∀ i : grid0.Coords, EltTy.bits .bf16 = 32 ∨ (Rect.block (s := S1500000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x6.size a ≤ S1500000x6.size a
  hwx0_1 : ∀ i : grid0.Coords, EltTy.bits .bf16 = 32 ∨ (Rect.block (s := S1500000x6) S10000x6.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x64.size a ≤ S6x64.size a
  hwx0_3 : ∀ i : grid0.Coords, EltTy.bits .f32 = 32 ∨ (Rect.block (s := S6x64) S6x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .f32 = 32 ∨ (Rect.block (s := S64x1) S64x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S10000x1.size a ≤ S1500000x1.size a
  hwx0_11 : ∀ i : grid0.Coords, EltTy.bits .f32 = 32 ∨ (Rect.block (s := S1500000x1) S10000x1.size (cc0_transform_11 i) (hinb0_11 i)).WholeWords (EltTy.packing .f32)

variable [Facts₀]

def gather_S100000x64_S1500000x1_S1500000x64_1_0_n_n_0_1_164 : GatherDims S100000x64 S1500000x1 S1500000x64 where
  offsetDims := [1]
  collapsedSliceDims := [0]
  operandBatchingDims := []
  startIndicesBatchingDims := []
  startIndexMap := [0]
  indexVectorDim := 1
  sliceSizes := ![1, 64]
  wf := gather_S100000x64_S1500000x1_S1500000x64_1_0_n_n_0_1_164_wf
def gather_S200000x3_S1500000x1_S1500000x3_1_0_n_n_0_1_13 : GatherDims S200000x3 S1500000x1 S1500000x3 where
  offsetDims := [1]
  collapsedSliceDims := [0]
  operandBatchingDims := []
  startIndicesBatchingDims := []
  startIndexMap := [0]
  indexVectorDim := 1
  sliceSizes := ![1, 3]
  wf := gather_S200000x3_S1500000x1_S1500000x3_1_0_n_n_0_1_13_wf
def gather_S100000x3_S1500000x1_S1500000x3_1_0_n_n_0_1_13 : GatherDims S100000x3 S1500000x1 S1500000x3 where
  offsetDims := [1]
  collapsedSliceDims := [0]
  operandBatchingDims := []
  startIndicesBatchingDims := []
  startIndexMap := [0]
  indexVectorDim := 1
  sliceSizes := ![1, 3]
  wf := gather_S100000x3_S1500000x1_S1500000x3_1_0_n_n_0_1_13_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x6_S6x64_S10000x64_1_0_0_1_n_n : DotDims S10000x6 S6x64 S10000x64 where
  lhsContracting := [1]
  rhsContracting := [0]
  lhsNonContracting := [0]
  rhsNonContracting := [1]
  lhsBatch := []
  rhsBatch := []
  wf := dot_S10000x6_S6x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def scatter_S200000_S1500000x1_S1500000_n_0_0_1 : ScatterDims S200000 S1500000x1 S1500000 where
  updateWindowDims := []
  insertedWindowDims := [0]
  scatterDimsToOperandDims := [0]
  indexVectorDim := 1
  wf := scatter_S200000_S1500000x1_S1500000_n_0_0_1_wf

abbrev win0_0 : Pipeline.Window sig grid0 :=
  Pipeline.Window.ofSpec (Memref.whole main_v11) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S10000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S6x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v42) S10000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x4 : Shape := ⟨2, ![100000, 4]⟩
abbrev S100000x64 : Shape := ⟨2, ![100000, 64]⟩
abbrev S200000x4 : Shape := ⟨2, ![200000, 4]⟩
abbrev S1500000 : Shape := ⟨1, ![1500000]⟩
abbrev S70x64 : Shape := ⟨2, ![70, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x3 : Shape := ⟨2, ![100000, 3]⟩
abbrev S200000x3 : Shape := ⟨2, ![200000, 3]⟩
abbrev S_ : Shape := ⟨0, ![]⟩
abbrev S1500000x1 : Shape := ⟨2, ![1500000, 1]⟩
abbrev S1500000x3 : Shape := ⟨2, ![1500000, 3]⟩
abbrev S1500000x64 : Shape := ⟨2, ![1500000, 64]⟩
abbrev S1500000x70 : Shape := ⟨2, ![1500000, 70]⟩
abbrev S1x64 : Shape := ⟨2, ![1, 64]⟩
abbrev S1x1 : Shape := ⟨2, ![1, 1]⟩
abbrev S200000 : Shape := ⟨1, ![200000]⟩

abbrev nBuf : Space → Nat
  | .hbm => 99
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S100000x64, .f32⟩
  | .hbm, ⟨2, _⟩ => ⟨S100000x4, .f32⟩
  | .hbm, ⟨3, _⟩ => ⟨S200000x4, .f32⟩
  | .hbm, ⟨4, _⟩ => ⟨S1500000, .i32⟩
  | .hbm, ⟨5, _⟩ => ⟨S1500000, .i32⟩
  | .hbm, ⟨6, _⟩ => ⟨S70x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S100000x3, .f32⟩
  | .hbm, ⟨15, _⟩ => ⟨S200000x3, .f32⟩
  | .hbm, ⟨16, _⟩ => ⟨S100000x3, .f32⟩
  | .hbm, ⟨17, _⟩ => ⟨S_, .i32⟩
  | .hbm, ⟨18, _⟩ => ⟨S1500000, .i32⟩
  | .hbm, ⟨19, _⟩ => ⟨S1500000, .i1⟩
  | .hbm, ⟨20, _⟩ => ⟨S_, .i32⟩
  | .hbm, ⟨21, _⟩ => ⟨S1500000, .i32⟩
  | .hbm, ⟨22, _⟩ => ⟨S1500000, .i32⟩
  | .hbm, ⟨23, _⟩ => ⟨S1500000, .i32⟩
  | .hbm, ⟨24, _⟩ => ⟨S1500000x1, .i32⟩
  | .hbm, ⟨25, _⟩ => ⟨S1500000x3, .f32⟩
  | .hbm, ⟨26, _⟩ => ⟨S_, .i32⟩
  | .hbm, ⟨27, _⟩ => ⟨S1500000, .i32⟩
  | .hbm, ⟨28, _⟩ => ⟨S1500000, .i1⟩
  | .hbm, ⟨29, _⟩ => ⟨S_, .i32⟩
  | .hbm, ⟨30, _⟩ => ⟨S1500000, .i32⟩
  | .hbm, ⟨31, _⟩ => ⟨S1500000, .i32⟩
  | .hbm, ⟨32, _⟩ => ⟨S1500000, .i32⟩
  | .hbm, ⟨33, _⟩ => ⟨S1500000x1, .i32⟩
  | .hbm, ⟨34, _⟩ => ⟨S1500000x3, .f32⟩
  | .hbm, ⟨35, _⟩ => ⟨S1500000x3, .f32⟩
  | .hbm, ⟨36, _⟩ => ⟨S_, .i32⟩
  | .hbm, ⟨37, _⟩ => ⟨S1500000, .i32⟩
  | .hbm, ⟨38, _⟩ => ⟨S1500000, .i1⟩
  | .hbm, ⟨39, _⟩ => ⟨S_, .i32⟩
  | .hbm, ⟨40, _⟩ => ⟨S1500000, .i32⟩
  | .hbm, ⟨41, _⟩ => ⟨S1500000, .i32⟩
  | .hbm, ⟨42, _⟩ => ⟨S1500000, .i32⟩
  | .hbm, ⟨43, _⟩ => ⟨S1500000x1, .i32⟩
  | .hbm, ⟨44, _⟩ => ⟨S1500000x64, .f32⟩
  | .hbm, ⟨45, _⟩ => ⟨S_, .i32⟩
  | .hbm, ⟨46, _⟩ => ⟨S1500000, .i32⟩
  | .hbm, ⟨47, _⟩ => ⟨S1500000, .i1⟩
  | .hbm, ⟨48, _⟩ => ⟨S_, .i32⟩
  | .hbm, ⟨49, _⟩ => ⟨S1500000, .i32⟩
  | .hbm, ⟨50, _⟩ => ⟨S1500000, .i32⟩
  | .hbm, ⟨51, _⟩ => ⟨S1500000, .i32⟩
  | .hbm, ⟨52, _⟩ => ⟨S1500000x1, .i32⟩
  | .hbm, ⟨53, _⟩ => ⟨S1500000x3, .f32⟩
  | .hbm, ⟨54, _⟩ => ⟨S1500000x70, .f32⟩
  | .hbm, ⟨55, _⟩ => ⟨S1500000x64, .f32⟩
  | .hbm, ⟨56, _⟩ => ⟨S1x64, .f32⟩
  | .hbm, ⟨57, _⟩ => ⟨S1500000x64, .f32⟩
  | .hbm, ⟨58, _⟩ => ⟨S1500000x64, .f32⟩
  | .hbm, ⟨59, _⟩ => ⟨S_, .f32⟩
  | .hbm, ⟨60, _⟩ => ⟨S1500000x64, .f32⟩
  | .hbm, ⟨61, _⟩ => ⟨S1500000x64, .f32⟩
  | .hbm, ⟨62, _⟩ => ⟨S1500000x64, .f32⟩
  | .hbm, ⟨63, _⟩ => ⟨S1x64, .f32⟩
  | .hbm, ⟨64, _⟩ => ⟨S1500000x64, .f32⟩
  | .hbm, ⟨65, _⟩ => ⟨S1500000x64, .f32⟩
  | .hbm, ⟨66, _⟩ => ⟨S_, .f32⟩
  | .hbm, ⟨67, _⟩ => ⟨S1500000x64, .f32⟩
  | .hbm, ⟨68, _⟩ => ⟨S1500000x64, .f32⟩
  | .hbm, ⟨69, _⟩ => ⟨S1500000x64, .f32⟩
  | .hbm, ⟨70, _⟩ => ⟨S1x64, .f32⟩
  | .hbm, ⟨71, _⟩ => ⟨S1500000x64, .f32⟩
  | .hbm, ⟨72, _⟩ => ⟨S1500000x64, .f32⟩
  | .hbm, ⟨73, _⟩ => ⟨S1500000x1, .f32⟩
  | .hbm, ⟨74, _⟩ => ⟨S1x1, .f32⟩
  | .hbm, ⟨75, _⟩ => ⟨S1500000x1, .f32⟩
  | .hbm, ⟨76, _⟩ => ⟨S1500000x1, .f32⟩
  | .hbm, ⟨77, _⟩ => ⟨S1500000, .f32⟩
  | .hbm, ⟨78, _⟩ => ⟨S_, .f32⟩
  | .hbm, ⟨79, _⟩ => ⟨S200000, .f32⟩
  | .hbm, ⟨80, _⟩ => ⟨S1500000x1, .i32⟩
  | .hbm, ⟨81, _⟩ => ⟨S200000, .f32⟩
  | .hbm, ⟨82, _⟩ => ⟨S_, .f32⟩
  | .hbm, ⟨83, _⟩ => ⟨S1500000, .f32⟩
  | .hbm, ⟨84, _⟩ => ⟨S_, .f32⟩
  | .hbm, ⟨85, _⟩ => ⟨S200000, .f32⟩
  | .hbm, ⟨86, _⟩ => ⟨S1500000x1, .i32⟩
  | .hbm, ⟨87, _⟩ => ⟨S200000, .f32⟩
  | .hbm, ⟨88, _⟩ => ⟨S_, .f32⟩
  | .hbm, ⟨89, _⟩ => ⟨S200000, .f32⟩
  | .hbm, ⟨90, _⟩ => ⟨S200000, .i1⟩
  | .hbm, ⟨91, _⟩ => ⟨S_, .f32⟩
  | .hbm, ⟨92, _⟩ => ⟨S200000, .f32⟩
  | .hbm, ⟨93, _⟩ => ⟨S200000, .f32⟩
  | .hbm, ⟨94, _⟩ => ⟨S200000, .f32⟩
  | .hbm, ⟨95, _⟩ => ⟨S_, .f32⟩
  | .hbm, ⟨96, _⟩ => ⟨S_, .f32⟩
  | .hbm, ⟨97, _⟩ => ⟨S200000, .f32⟩
  | .hbm, ⟨98, _⟩ => ⟨S200000, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call0_cst : Ref sig .tc := ⟨.hbm, 59, rfl⟩
abbrev main_call0_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call1_cst : Ref sig .tc := ⟨.hbm, 66, rfl⟩
abbrev main_call1_v0 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_call2_v0 : Ref sig .tc := ⟨.hbm, 96, rfl⟩
abbrev main_call2_v1 : Ref sig .tc := ⟨.hbm, 97, rfl⟩
abbrev main_v64 : Ref sig .tc := ⟨.hbm, 98, rfl⟩

abbrev nD : Nat := 1
abbrev τ : Topo := Topo.v7x

variable {F : FTy → Type} [FloatOps F]

class Facts₀ : Prop where
  slices_S100000x4_S100000x3_0_1 : S100000x4.Slices ![0, 1] S100000x3
  slices_S200000x4_S200000x3_0_1 : S200000x4.Slices ![0, 1] S200000x3
  bcast_S_S1500000 : S_.BroadcastsInDim S1500000 (![] : Fin 0 → Fin S1500000.rank)
  bcast_S1500000_S1500000x1_0 : S1500000.BroadcastsInDim S1500000x1 (![0] : Fin 1 → Fin S1500000x1.rank)
  concatenates_S1500000x64_S1500000x3_S1500000x3_S1500000x70_d1 : Shape.Concatenates [S1500000x64, S1500000x3, S1500000x3] S1500000x70 1
  bcast_S64_S1x64_1 : S64.BroadcastsInDim S1x64 (![1] : Fin 1 → Fin S1x64.rank)
  bcast_S1x64_S1500000x64_0_1 : S1x64.BroadcastsInDim S1500000x64 (![0, 1] : Fin 2 → Fin S1500000x64.rank)
  bcast_S_S1500000x64 : S_.BroadcastsInDim S1500000x64 (![] : Fin 0 → Fin S1500000x64.rank)
  bcast_S1_S1x1_1 : S1.BroadcastsInDim S1x1 (![1] : Fin 1 → Fin S1x1.rank)
  bcast_S1x1_S1500000x1_0_1 : S1x1.BroadcastsInDim S1500000x1 (![0, 1] : Fin 2 → Fin S1500000x1.rank)
  shapeCasts_S1500000x1_S1500000 : S1500000x1.ShapeCasts S1500000
  bcast_S_S200000 : S_.BroadcastsInDim S200000 (![] : Fin 0 → Fin S200000.rank)
  gather_S200000x3_S1500000x1_S1500000x3_1_0_n_n_0_1_13_wf : GatherDims.WF S200000x3 S1500000x1 S1500000x3 [1] [0] [] [0] [] 1 ![1, 3]
  gather_S100000x3_S1500000x1_S1500000x3_1_0_n_n_0_1_13_wf : GatherDims.WF S100000x3 S1500000x1 S1500000x3 [1] [0] [] [0] [] 1 ![1, 3]
  gather_S100000x64_S1500000x1_S1500000x64_1_0_n_n_0_1_164_wf : GatherDims.WF S100000x64 S1500000x1 S1500000x64 [1] [0] [] [0] [] 1 ![1, 64]
  dot_S1500000x70_S70x64_S1500000x64_1_0_0_1_n_n_wf : DotDims.WF S1500000x70 S70x64 S1500000x64 [1] [0] [0] [1] [] []
  dot_S1500000x64_S64x64_S1500000x64_1_0_0_1_n_n_wf : DotDims.WF S1500000x64 S64x64 S1500000x64 [1] [0] [0] [1] [] []
  dot_S1500000x64_S64x1_S1500000x1_1_0_0_1_n_n_wf : DotDims.WF S1500000x64 S64x1 S1500000x1 [1] [0] [0] [1] [] []
  scatter_S200000_S1500000x1_S1500000_n_0_0_1_wf : ScatterDims.WF S200000 S1500000x1 S1500000 [] [0] [0] 1

variable [Facts₀]

def gather_S200000x3_S1500000x1_S1500000x3_1_0_n_n_0_1_13 : GatherDims S200000x3 S1500000x1 S1500000x3 where
  offsetDims := [1]
  collapsedSliceDims := [0]
  operandBatchingDims := []
  startIndicesBatchingDims := []
  startIndexMap := [0]
  indexVectorDim := 1
  sliceSizes := ![1, 3]
  wf := gather_S200000x3_S1500000x1_S1500000x3_1_0_n_n_0_1_13_wf
def gather_S100000x3_S1500000x1_S1500000x3_1_0_n_n_0_1_13 : GatherDims S100000x3 S1500000x1 S1500000x3 where
  offsetDims := [1]
  collapsedSliceDims := [0]
  operandBatchingDims := []
  startIndicesBatchingDims := []
  startIndexMap := [0]
  indexVectorDim := 1
  sliceSizes := ![1, 3]
  wf := gather_S100000x3_S1500000x1_S1500000x3_1_0_n_n_0_1_13_wf
def gather_S100000x64_S1500000x1_S1500000x64_1_0_n_n_0_1_164 : GatherDims S100000x64 S1500000x1 S1500000x64 where
  offsetDims := [1]
  collapsedSliceDims := [0]
  operandBatchingDims := []
  startIndicesBatchingDims := []
  startIndexMap := [0]
  indexVectorDim := 1
  sliceSizes := ![1, 64]
  wf := gather_S100000x64_S1500000x1_S1500000x64_1_0_n_n_0_1_164_wf
def dot_S1500000x70_S70x64_S1500000x64_1_0_0_1_n_n : DotDims S1500000x70 S70x64 S1500000x64 where
  lhsContracting := [1]
  rhsContracting := [0]
  lhsNonContracting := [0]
  rhsNonContracting := [1]
  lhsBatch := []
  rhsBatch := []
  wf := dot_S1500000x70_S70x64_S1500000x64_1_0_0_1_n_n_wf
def dot_S1500000x64_S64x64_S1500000x64_1_0_0_1_n_n : DotDims S1500000x64 S64x64 S1500000x64 where
  lhsContracting := [1]
  rhsContracting := [0]
  lhsNonContracting := [0]
  rhsNonContracting := [1]
  lhsBatch := []
  rhsBatch := []
  wf := dot_S1500000x64_S64x64_S1500000x64_1_0_0_1_n_n_wf
def dot_S1500000x64_S64x1_S1500000x1_1_0_0_1_n_n : DotDims S1500000x64 S64x1 S1500000x1 where
  lhsContracting := [1]
  rhsContracting := [0]
  lhsNonContracting := [0]
  rhsNonContracting := [1]
  lhsBatch := []
  rhsBatch := []
  wf := dot_S1500000x64_S64x1_S1500000x1_1_0_0_1_n_n_wf
def scatter_S200000_S1500000x1_S1500000_n_0_0_1 : ScatterDims S200000 S1500000x1 S1500000 where
  updateWindowDims := []
  insertedWindowDims := [0]
  scatterDimsToOperandDims := [0]
  indexVectorDim := 1
  wf := scatter_S200000_S1500000x1_S1500000_n_0_0_1_wf

class Facts : Prop extends Facts₀ where

variable [Facts]
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.EdgeNet.lean ====
/-
  The per-edge network, as plain arithmetic on the extended reals.

  One edge carries a feature row; the network is four affine layers with a rectifier after the first two.  The first
  layer is written two ways: over the whole 70-entry feature row (64 latent entries, then 3 relative-position entries,
  then 3 direction entries) against the 70 × 64 weight matrix, and as the sum of two products — the 64 latent entries
  against the first 64 weight rows, plus the 6 remaining entries against the last 6 weight rows.  The two agree because a
  sum over 70 indices is the sum over the first 64 plus the sum over the last 6; addition of extended reals is
  commutative and associative without any finiteness, so no hypothesis on the entries is needed.
-/
import Idealize.ShloMosaic.PureOps.Ideal

noncomputable section

namespace Cert.EdgeNet

open BigOperators

/-- An affine layer: entry `j` of the result is the sum over `k` of `x k * W k j`, plus the bias `b j`. -/
def affine {K N : ℕ} (x : Fin K → EReal) (W : Fin K → Fin N → EReal) (b : Fin N → EReal) : Fin N → EReal :=
  fun j => (∑ k : Fin K, x k * W k j) + b j

/-- The rectifier, entry by entry: the larger of the entry and zero. -/
def rect {N : ℕ} (x : Fin N → EReal) : Fin N → EReal := fun j => max (x j) 0

/-- The first layer from a row given in two parts: the two partial products are added, then the bias. -/
def affineSplit {A B N : ℕ} (xa : Fin A → EReal) (xb : Fin B → EReal) (Wa : Fin A → Fin N → EReal)
    (Wb : Fin B → Fin N → EReal) (b : Fin N → EReal) : Fin N → EReal :=
  fun j => ((∑ k : Fin A, xa k * Wa k j) + (∑ k : Fin B, xb k * Wb k j)) + b j

/-- An affine layer over `A + B` inputs is the split layer over the first `A` and the last `B`. -/
theorem affine_eq_affineSplit {A B N : ℕ} (x : Fin (A + B) → EReal) (W : Fin (A + B) → Fin N → EReal) (b : Fin N → EReal) :
    affine x W b = affineSplit (fun k => x (Fin.castAdd B k)) (fun k => x (Fin.natAdd A k))
      (fun k => W (Fin.castAdd B k)) (fun k => W (Fin.natAdd A k)) b := by
  funext j
  unfold affine affineSplit
  rw [Fin.sum_univ_add]

/-- The layers after the first one: rectifier, affine, rectifier, affine, affine; the single output entry. -/
def rest (h : Fin 64 → EReal) (W1 : Fin 64 → Fin 64 → EReal) (b1 : Fin 64 → EReal) (W2 : Fin 64 → Fin 64 → EReal)
    (b2 : Fin 64 → EReal) (Wo : Fin 64 → Fin 1 → EReal) (bo : Fin 1 → EReal) : EReal :=
  affine (affine (rect (affine (rect h) W1 b1)) W2 b2) Wo bo 0

end Cert.EdgeNet

end
-- ==== Proof.RefNet.lean ====
/-
  The reference program's value, layer by layer.

  The reference gathers, per edge, the 64 latent entries, the 3 relative-position entries and the 3 direction entries,
  joins them into a 70-entry feature row, and applies the four affine layers (rectifier after the first two) to the
  1500000 × 70 feature array at once.  Each host product puts in entry (e, j) the sum over k of left(e, k) · right(k, j), and each
  bias vector is broadcast over the edges, so row `e` of every layer depends only on row `e` of the features: entry (e, 0) of
  the last layer is the per-edge network of feature row `e`.  The mean over edges per target point that follows is kept as one
  function `tail` of that array and of the target indices, never opened.
-/
import proofs.«159156_j79121887527504_2_alg».proof.Proof.RefRunP
import proofs.«159156_j79121887527504_2_alg».proof.Proof.LibPlainDot
import proofs.«159156_j79121887527504_2_alg».proof.Proof.EdgeNet
import Idealize.ShloMosaic.Lib.ValueIdx
import Idealize.ShloMosaic.Lib.Pipeline.Value
import Idealize.ShloMosaic.PureOps.Ideal.Laws

set_option maxRecDepth 16384

noncomputable section

namespace Cert.ReferenceIdeal.Net

open Idealize.ShloMosaic Idealize.ShloMosaic.TcCoe Idealize.ShloMosaic.ValueIdx Idealize.SL.Sem
open Cert.ReferenceIdeal Cert.ReferenceIdeal.Gen Cert.EdgeNet

/-! ## The program's composite, cut into the features, the layers and the mean -/

section
variable {F : FTy → Type} [FloatOps F]

/-- The gathered latent rows: row `e` is row `col e` of the latent table (a negative index wrapped once). -/
def lat (a1 : (⟨S100000x64, .f32⟩ : BufTy).Contents (Elt F)) (a5 : (⟨S1500000, .i32⟩ : BufTy).Contents (Elt F)) : (⟨S1500000x64, .f32⟩ : BufTy).Contents (Elt F) :=
  (Host.gather gather_S100000x64_S1500000x1_S1500000x64_1_0_n_n_0_1_164 a1 (broadcastInDim S1500000x1 ![0] bcast_S1500000_S1500000x1_0 (select (cmpi .slt a5 (broadcastInDim S1500000 ![] bcast_S_S1500000 (constantI S_ 32 0#32))) (addi a5 (broadcastInDim S1500000 ![] bcast_S_S1500000 (constantI S_ 32 100000#32))) a5)))

/-- The relative positions: target position at `row e` minus source position at `col e`, columns 1–3 of the two tables. -/
def prel (a0 : (⟨S100000x4, .f32⟩ : BufTy).Contents (Elt F)) (a3 : (⟨S200000x4, .f32⟩ : BufTy).Contents (Elt F)) (a4 a5 : (⟨S1500000, .i32⟩ : BufTy).Contents (Elt F)) : (⟨S1500000x3, .f32⟩ : BufTy).Contents (Elt F) :=
  (subf (Host.gather gather_S200000x3_S1500000x1_S1500000x3_1_0_n_n_0_1_13 (extractStridedSlice S200000x3 ![0, 1] a3 slices_S200000x4_S200000x3_0_1) (broadcastInDim S1500000x1 ![0] bcast_S1500000_S1500000x1_0 (select (cmpi .slt a4 (broadcastInDim S1500000 ![] bcast_S_S1500000 (constantI S_ 32 0#32))) (addi a4 (broadcastInDim S1500000 ![] bcast_S_S1500000 (constantI S_ 32 200000#32))) a4))) (Host.gather gather_S100000x3_S1500000x1_S1500000x3_1_0_n_n_0_1_13 (extractStridedSlice S100000x3 ![0, 1] a0 slices_S100000x4_S100000x3_0_1) (broadcastInDim S1500000x1 ![0] bcast_S1500000_S1500000x1_0 (select (cmpi .slt a5 (broadcastInDim S1500000 ![] bcast_S_S1500000 (constantI S_ 32 0#32))) (addi a5 (broadcastInDim S1500000 ![] bcast_S_S1500000 (constantI S_ 32 100000#32))) a5))))

/-- The gathered directions: columns 1–3 of the direction table at `col e`. -/
def dirs (a2 : (⟨S100000x4, .f32⟩ : BufTy).Contents (Elt F)) (a5 : (⟨S1500000, .i32⟩ : BufTy).Contents (Elt F)) : (⟨S1500000x3, .f32⟩ : BufTy).Contents (Elt F) :=
  (Host.gather gather_S100000x3_S1500000x1_S1500000x3_1_0_n_n_0_1_13 (extractStridedSlice S100000x3 ![0, 1] a2 slices_S100000x4_S100000x3_0_1) (broadcastInDim S1500000x1 ![0] bcast_S1500000_S1500000x1_0 (select (cmpi .slt a5 (broadcastInDim S1500000 ![] bcast_S_S1500000 (constantI S_ 32 0#32))) (addi a5 (broadcastInDim S1500000 ![] bcast_S_S1500000 (constantI S_ 32 100000#32))) a5)))

/-- The 1500000 × 70 feature array: the three pieces side by side. -/
def feat (L : (⟨S1500000x64, .f32⟩ : BufTy).Contents (Elt F)) (Pr : (⟨S1500000x3, .f32⟩ : BufTy).Contents (Elt F)) (Dr : (⟨S1500000x3, .f32⟩ : BufTy).Contents (Elt F)) : (⟨S1500000x70, .f32⟩ : BufTy).Contents (Elt F) :=
  concatenate S1500000x70 1 [⟨S1500000x64, L⟩, ⟨S1500000x3, Pr⟩, ⟨S1500000x3, Dr⟩] concatenates_S1500000x64_S1500000x3_S1500000x3_S1500000x70_d1

/-- The four layers over the whole feature array. -/
def net (X : (⟨S1500000x70, .f32⟩ : BufTy).Contents (Elt F)) (a6 : (⟨S70x64, .f32⟩ : BufTy).Contents (Elt F)) (a7 : (⟨S64, .f32⟩ : BufTy).Contents (Elt F)) (a8 : (⟨S64x64, .f32⟩ : BufTy).Contents (Elt F))
    (a9 : (⟨S64, .f32⟩ : BufTy).Contents (Elt F)) (a10 : (⟨S64x64, .f32⟩ : BufTy).Contents (Elt F)) (a11 : (⟨S64, .f32⟩ : BufTy).Contents (Elt F)) (a12 : (⟨S64x1, .f32⟩ : BufTy).Contents (Elt F))
    (a13 : (⟨S1, .f32⟩ : BufTy).Contents (Elt F)) : (⟨S1500000x1, .f32⟩ : BufTy).Contents (Elt F) :=
  (addf (Host.dotGeneral (F := F) dot_S1500000x64_S64x1_S1500000x1_1_0_0_1_n_n none (addf (Host.dotGeneral (F := F) dot_S1500000x64_S64x64_S1500000x64_1_0_0_1_n_n none (maximumf (addf (Host.dotGeneral (F := F) dot_S1500000x64_S64x64_S1500000x64_1_0_0_1_n_n none (maximumf (addf (Host.dotGeneral (F := F) dot_S1500000x70_S70x64_S1500000x64_1_0_0_1_n_n none X a6) (broadcastInDim S1500000x64 ![0, 1] bcast_S1x64_S1500000x64_0_1 (broadcastInDim S1x64 ![1] bcast_S64_S1x64_1 a7))) (broadcastInDim S1500000x64 ![] bcast_S_S1500000x64 (constant (F := F) S_ .f32 0x00000000#32))) a8) (broadcastInDim S1500000x64 ![0, 1] bcast_S1x64_S1500000x64_0_1 (broadcastInDim S1x64 ![1] bcast_S64_S1x64_1 a9))) (broadcastInDim S1500000x64 ![] bcast_S_S1500000x64 (constant (F := F) S_ .f32 0x00000000#32))) a10) (broadcastInDim S1500000x64 ![0, 1] bcast_S1x64_S1500000x64_0_1 (broadcastInDim S1x64 ![1] bcast_S64_S1x64_1 a11))) a12) (broadcastInDim S1500000x1 ![0, 1] bcast_S1x1_S1500000x1_0_1 (broadcastInDim S1x1 ![1] bcast_S1_S1x1_1 a13)))

/-- The mean per target point of the edge values `Y` over the edges whose target index is that point, with the fill value
    where a point has no edge: sums and counts by scatter-add, the quotient by the count raised to at least one. -/
def tail (Y : (⟨S1500000x1, .f32⟩ : BufTy).Contents (Elt F)) (a4 : (⟨S1500000, .i32⟩ : BufTy).Contents (Elt F)) : (⟨S200000, .f32⟩ : BufTy).Contents (Elt F) :=
  select (cmpf (F := F) .ogt (Host.scatterAdd (F := F) scatter_S200000_S1500000x1_S1500000_n_0_0_1 (broadcastInDim S200000 ![] bcast_S_S200000 (constant (F := F) S_ .f32 0x00000000#32)) (broadcastInDim S1500000x1 ![0] bcast_S1500000_S1500000x1_0 a4) (broadcastInDim S1500000 ![] bcast_S_S1500000 (constant (F := F) S_ .f32 0x3F800000#32))) (broadcastInDim S200000 ![] bcast_S_S200000 (constant (F := F) S_ .f32 0x00000000#32))) (Host.divf (F := F) (Host.scatterAdd (F := F) scatter_S200000_S1500000x1_S1500000_n_0_0_1 (broadcastInDim S200000 ![] bcast_S_S200000 (constant (F := F) S_ .f32 0x00000000#32)) (broadcastInDim S1500000x1 ![0] bcast_S1500000_S1500000x1_0 a4) (shapeCast S1500000 Y shapeCasts_S1500000x1_S1500000)) (maximumf (Host.scatterAdd (F := F) scatter_S200000_S1500000x1_S1500000_n_0_0_1 (broadcastInDim S200000 ![] bcast_S_S200000 (constant (F := F) S_ .f32 0x00000000#32)) (broadcastInDim S1500000x1 ![0] bcast_S1500000_S1500000x1_0 a4) (broadcastInDim S1500000 ![] bcast_S_S1500000 (constant (F := F) S_ .f32 0x3F800000#32))) (broadcastInDim S200000 ![] bcast_S_S200000 (constant (F := F) S_ .f32 0x3F800000#32)))) (broadcastInDim S200000 ![] bcast_S_S200000 (id (constant (F := F) S_ .f32 0xCB189680#32)))

end

/-- The run's result term is the mean of the layers of the features of the argument arrays. -/
theorem res_eq (m : (ℓ : Loc nD τ sig) → Buf (Elt Ideal) ℓ) (c : Dev nD) :
    Cert.ReferenceIdeal.Value.res_main_v64 (F := Ideal) m c
      = tail (F := Ideal) (net (F := Ideal) (feat (F := Ideal) (lat (F := Ideal) (m ((c.tc : Thread nD τ).loc main_arg1)) (m ((c.tc : Thread nD τ).loc main_arg5)))
            (prel (F := Ideal) (m ((c.tc : Thread nD τ).loc main_arg0)) (m ((c.tc : Thread nD τ).loc main_arg3)) (m ((c.tc : Thread nD τ).loc main_arg4)) (m ((c.tc : Thread nD τ).loc main_arg5)))
            (dirs (F := Ideal) (m ((c.tc : Thread nD τ).loc main_arg2)) (m ((c.tc : Thread nD τ).loc main_arg5))))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)))
        (m ((c.tc : Thread nD τ).loc main_arg4)) := by
  unfold Cert.ReferenceIdeal.Value.res_main_v64 tail net feat lat prel dirs
  rfl

/-! ## The three products' index maps -/

theorem d70_row (j : S1500000x64.Idx) (k : dot_S1500000x70_S70x64_S1500000x64_1_0_0_1_n_n.contr.Idx) :
    (dot_S1500000x70_S70x64_S1500000x64_1_0_0_1_n_n.lhsIdx j k 0).val = (j 0).val := by
  unfold DotDims.lhsIdx
  rw [dif_neg (show ¬(0 : Fin S1500000x70.rank) ∈ dot_S1500000x70_S70x64_S1500000x64_1_0_0_1_n_n.lhsBatch by decide),
    dif_pos (show (0 : Fin S1500000x70.rank) ∈ dot_S1500000x70_S70x64_S1500000x64_1_0_0_1_n_n.lhsNonContracting by decide)]
  rfl

theorem d70_col (j : S1500000x64.Idx) (k : dot_S1500000x70_S70x64_S1500000x64_1_0_0_1_n_n.contr.Idx) :
    (dot_S1500000x70_S70x64_S1500000x64_1_0_0_1_n_n.rhsIdx j k 1).val = (j 1).val := by
  unfold DotDims.rhsIdx
  rw [dif_neg (show ¬(1 : Fin S70x64.rank) ∈ dot_S1500000x70_S70x64_S1500000x64_1_0_0_1_n_n.rhsBatch by decide),
    dif_pos (show (1 : Fin S70x64.rank) ∈ dot_S1500000x70_S70x64_S1500000x64_1_0_0_1_n_n.rhsNonContracting by decide)]
  rfl

theorem d64_row (j : S1500000x64.Idx) (k : dot_S1500000x64_S64x64_S1500000x64_1_0_0_1_n_n.contr.Idx) :
    (dot_S1500000x64_S64x64_S1500000x64_1_0_0_1_n_n.lhsIdx j k 0).val = (j 0).val := by
  unfold DotDims.lhsIdx
  rw [dif_neg (show ¬(0 : Fin S1500000x64.rank) ∈ dot_S1500000x64_S64x64_S1500000x64_1_0_0_1_n_n.lhsBatch by decide),
    dif_pos (show (0 : Fin S1500000x64.rank) ∈ dot_S1500000x64_S64x64_S1500000x64_1_0_0_1_n_n.lhsNonContracting by decide)]
  rfl

theorem d64_col (j : S1500000x64.Idx) (k : dot_S1500000x64_S64x64_S1500000x64_1_0_0_1_n_n.contr.Idx) :
    (dot_S1500000x64_S64x64_S1500000x64_1_0_0_1_n_n.rhsIdx j k 1).val = (j 1).val := by
  unfold DotDims.rhsIdx
  rw [dif_neg (show ¬(1 : Fin S64x64.rank) ∈ dot_S1500000x64_S64x64_S1500000x64_1_0_0_1_n_n.rhsBatch by decide),
    dif_pos (show (1 : Fin S64x64.rank) ∈ dot_S1500000x64_S64x64_S1500000x64_1_0_0_1_n_n.rhsNonContracting by decide)]
  rfl

theorem d1_row (j : S1500000x1.Idx) (k : dot_S1500000x64_S64x1_S1500000x1_1_0_0_1_n_n.contr.Idx) :
    (dot_S1500000x64_S64x1_S1500000x1_1_0_0_1_n_n.lhsIdx j k 0).val = (j 0).val := by
  unfold DotDims.lhsIdx
  rw [dif_neg (show ¬(0 : Fin S1500000x64.rank) ∈ dot_S1500000x64_S64x1_S1500000x1_1_0_0_1_n_n.lhsBatch by decide),
    dif_pos (show (0 : Fin S1500000x64.rank) ∈ dot_S1500000x64_S64x1_S1500000x1_1_0_0_1_n_n.lhsNonContracting by decide)]
  rfl

theorem d1_col (j : S1500000x1.Idx) (k : dot_S1500000x64_S64x1_S1500000x1_1_0_0_1_n_n.contr.Idx) :
    (dot_S1500000x64_S64x1_S1500000x1_1_0_0_1_n_n.rhsIdx j k 1).val = (j 1).val := by
  unfold DotDims.rhsIdx
  rw [dif_neg (show ¬(1 : Fin S64x1.rank) ∈ dot_S1500000x64_S64x1_S1500000x1_1_0_0_1_n_n.rhsBatch by decide),
    dif_pos (show (1 : Fin S64x1.rank) ∈ dot_S1500000x64_S64x1_S1500000x1_1_0_0_1_n_n.rhsNonContracting by decide)]
  rfl

/-! ## A bias vector broadcast over the edges, and the zero splat -/

/-- A length-64 vector made a one-row array and broadcast over the edges reads, at (e, j), the vector's entry j. -/
theorem bias64 (b : FVec Ideal S64 .f32) (e : Fin 1500000) (j : Fin 64) :
    broadcastInDim S1500000x64 ![0, 1] bcast_S1x64_S1500000x64_0_1 (broadcastInDim S1x64 ![1] bcast_S64_S1x64_1 b) (ix2 e j) = b (ix1 j) := by
  refine (broadcastInDim_apply _ bcast_S1x64_S1500000x64_0_1 _ (ix2 e j) (ix2 (0 : Fin 1) j) (fun a => match a with
    | ⟨0, _⟩ => by show 0 = if (1 : Nat) = 1 then 0 else e.val; rw [if_pos rfl]
    | ⟨1, _⟩ => by show j.val = if (64 : Nat) = 1 then 0 else j.val; rw [if_neg (by decide)])).trans ?_
  exact broadcastInDim_apply _ bcast_S64_S1x64_1 b (ix2 (0 : Fin 1) j) (ix1 j) (fun a => match a with
    | ⟨0, _⟩ => by show j.val = if (64 : Nat) = 1 then 0 else j.val; rw [if_neg (by decide)])

/-- The same for the length-1 bias of the last layer. -/
theorem bias1 (b : FVec Ideal S1 .f32) (e : Fin 1500000) (j : Fin 1) :
    broadcastInDim S1500000x1 ![0, 1] bcast_S1x1_S1500000x1_0_1 (broadcastInDim S1x1 ![1] bcast_S1_S1x1_1 b) (ix2 e j) = b (ix1 j) := by
  have hj : j.val = 0 := by have := j.isLt; omega
  refine (broadcastInDim_apply _ bcast_S1x1_S1500000x1_0_1 _ (ix2 e j) (ix2 (0 : Fin 1) j) (fun a => match a with
    | ⟨0, _⟩ => by show 0 = if (1 : Nat) = 1 then 0 else e.val; rw [if_pos rfl]
    | ⟨1, _⟩ => by show j.val = if (1 : Nat) = 1 then 0 else j.val; rw [if_pos rfl]; exact hj)).trans ?_
  exact broadcastInDim_apply _ bcast_S1_S1x1_1 b (ix2 (0 : Fin 1) j) (ix1 j) (fun a => match a with
    | ⟨0, _⟩ => by show j.val = if (1 : Nat) = 1 then 0 else j.val; rw [if_pos rfl]; exact hj)

/-! ## One layer of the whole array, read in row `e` -/

theorem layer70_row (X : FVec Ideal S1500000x70 .f32) (W : FVec Ideal S70x64 .f32) (b : FVec Ideal S64 .f32) (e : Fin 1500000) :
    (fun j : Fin 64 => addf (F := Ideal) (Host.dotGeneral (F := Ideal) dot_S1500000x70_S70x64_S1500000x64_1_0_0_1_n_n none X W)
        (broadcastInDim S1500000x64 ![0, 1] bcast_S1x64_S1500000x64_0_1 (broadcastInDim S1x64 ![1] bcast_S64_S1x64_1 b)) (ix2 e j))
      = affine (fun k => X (ix2 e k)) (fun k j => W (ix2 k j)) (fun j => b (ix1 j)) := by
  funext j
  unfold affine
  exact congrArg₂ (· + ·)
    (Cert.LibPlainDot.dotGeneral_apply dot_S1500000x70_S70x64_S1500000x64_1_0_0_1_n_n rfl rfl rfl rfl d70_row d70_col none _ X W e j)
    (bias64 b e j)

theorem layer64_row (A : FVec Ideal S1500000x64 .f32) (W : FVec Ideal S64x64 .f32) (b : FVec Ideal S64 .f32) (e : Fin 1500000) :
    (fun j : Fin 64 => addf (F := Ideal) (Host.dotGeneral (F := Ideal) dot_S1500000x64_S64x64_S1500000x64_1_0_0_1_n_n none A W)
        (broadcastInDim S1500000x64 ![0, 1] bcast_S1x64_S1500000x64_0_1 (broadcastInDim S1x64 ![1] bcast_S64_S1x64_1 b)) (ix2 e j))
      = affine (fun k => A (ix2 e k)) (fun k j => W (ix2 k j)) (fun j => b (ix1 j)) := by
  funext j
  unfold affine
  exact congrArg₂ (· + ·)
    (Cert.LibPlainDot.dotGeneral_apply dot_S1500000x64_S64x64_S1500000x64_1_0_0_1_n_n rfl rfl rfl rfl d64_row d64_col none _ A W e j)
    (bias64 b e j)

theorem layer1_row (A : FVec Ideal S1500000x64 .f32) (W : FVec Ideal S64x1 .f32) (b : FVec Ideal S1 .f32) (e : Fin 1500000) :
    (fun j : Fin 1 => addf (F := Ideal) (Host.dotGeneral (F := Ideal) dot_S1500000x64_S64x1_S1500000x1_1_0_0_1_n_n none A W)
        (broadcastInDim S1500000x1 ![0, 1] bcast_S1x1_S1500000x1_0_1 (broadcastInDim S1x1 ![1] bcast_S1_S1x1_1 b)) (ix2 e j))
      = affine (fun k => A (ix2 e k)) (fun k j => W (ix2 k j)) (fun j => b (ix1 j)) := by
  funext j
  unfold affine
  exact congrArg₂ (· + ·)
    (Cert.LibPlainDot.dotGeneral_apply dot_S1500000x64_S64x1_S1500000x1_1_0_0_1_n_n rfl rfl rfl rfl d1_row d1_col none _ A W e j)
    (bias1 b e j)

/-- The rectifier against the zero splat: row `e` is the rectified row. -/
theorem rect_row (X : FVec Ideal S1500000x64 .f32) (e : Fin 1500000) :
    (fun k : Fin 64 => maximumf (F := Ideal) X (broadcastInDim S1500000x64 ![] bcast_S_S1500000x64 (constant (F := Ideal) S_ .f32 0x00000000#32)) (ix2 e k))
      = rect (fun k => X (ix2 e k)) := by
  funext k
  unfold rect
  refine congrArg (max (X (ix2 e k))) ?_
  rw [broadcastInDim_apply ![] bcast_S_S1500000x64 _ (ix2 e k) ix0 (fun a => a.elim0)]
  exact Ideal.ofBits_zero_f32

/-- Entry (e, 0) of the layers is the per-edge network of feature row `e`, the first layer over all 70 entries. -/
theorem net_row (X : FVec Ideal S1500000x70 .f32) (a6 : FVec Ideal S70x64 .f32) (a7 : FVec Ideal S64 .f32) (a8 : FVec Ideal S64x64 .f32)
    (a9 : FVec Ideal S64 .f32) (a10 : FVec Ideal S64x64 .f32) (a11 : FVec Ideal S64 .f32) (a12 : FVec Ideal S64x1 .f32)
    (a13 : FVec Ideal S1 .f32) (e : Fin 1500000) :
    net (F := Ideal) X a6 a7 a8 a9 a10 a11 a12 a13 (ix2 e (0 : Fin 1))
      = rest (affine (fun k => X (ix2 e k)) (fun k j => a6 (ix2 k j)) (fun j => a7 (ix1 j)))
          (fun k j => a8 (ix2 k j)) (fun j => a9 (ix1 j)) (fun k j => a10 (ix2 k j)) (fun j => a11 (ix1 j))
          (fun k j => a12 (ix2 k j)) (fun j => a13 (ix1 j)) := by
  unfold rest net
  refine (congrFun (layer1_row _ a12 a13 e) (0 : Fin 1)).trans ?_
  refine congrArg (fun a => affine a _ _ (0 : Fin 1)) ?_
  refine (layer64_row _ a10 a11 e).trans ?_
  refine congrArg (fun a => affine a _ _) ?_
  refine (rect_row _ e).trans ?_
  refine congrArg rect ?_
  refine (layer64_row _ a8 a9 e).trans ?_
  refine congrArg (fun a => affine a _ _) ?_
  refine (rect_row _ e).trans ?_
  refine congrArg rect ?_
  exact layer70_row X a6 a7 e

end Cert.ReferenceIdeal.Net

end
-- ==== Proof.KernelRow.lean ====
/-
  One row of the kernel's block, as the per-edge network.

  The kernel body works on a block of 10000 edges at once: a 10000 × 64 block of gathered latent rows, a 10000 × 6 block
  of relative positions and directions, and the weights and one-row biases whole.  Every operation in it is row-wise: a
  matrix product into a zero accumulator puts in entry (r, j) the sum over k of left(r, k) · right(k, j); a one-row bias
  broadcast over the rows adds b(0, j); the rectifier and the changes of float format act entry by entry (the latter are
  the identity on extended reals).  So row r of what the body stores depends only on row r of the two input blocks, and it
  is the per-edge network of that row.
-/
import proofs.«159156_j79121887527504_2_alg».proof.Proof.Gen.KernelIdeal
import proofs.«159156_j79121887527504_2_alg».proof.Proof.Gen.KernelIdeal.Skeleton
import proofs.«159156_j79121887527504_2_alg».proof.Proof.LibPlainDot
import proofs.«159156_j79121887527504_2_alg».proof.Proof.EdgeNet
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Row

open Idealize.ShloMosaic Idealize.ShloMosaic.ValueIdx Cert.KernelIdeal Cert.EdgeNet
open Cert.KernelIdeal.Facts₀ Cert.KernelIdeal.Facts

/-! ## The three products' index maps: the left operand's row is the output's row, the right operand's column the output's column -/

theorem d64_row (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem d64_col (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

theorem d6_row (j : S10000x64.Idx) (k : dot_S10000x6_S6x64_S10000x64_1_0_0_1_n_n.contr.Idx) :
    (dot_S10000x6_S6x64_S10000x64_1_0_0_1_n_n.lhsIdx j k 0).val = (j 0).val := by
  unfold DotDims.lhsIdx
  rw [dif_neg (show ¬(0 : Fin S10000x6.rank) ∈ dot_S10000x6_S6x64_S10000x64_1_0_0_1_n_n.lhsBatch by decide),
    dif_pos (show (0 : Fin S10000x6.rank) ∈ dot_S10000x6_S6x64_S10000x64_1_0_0_1_n_n.lhsNonContracting by decide)]
  rfl

theorem d6_col (j : S10000x64.Idx) (k : dot_S10000x6_S6x64_S10000x64_1_0_0_1_n_n.contr.Idx) :
    (dot_S10000x6_S6x64_S10000x64_1_0_0_1_n_n.rhsIdx j k 1).val = (j 1).val := by
  unfold DotDims.rhsIdx
  rw [dif_neg (show ¬(1 : Fin S6x64.rank) ∈ dot_S10000x6_S6x64_S10000x64_1_0_0_1_n_n.rhsBatch by decide),
    dif_pos (show (1 : Fin S6x64.rank) ∈ dot_S10000x6_S6x64_S10000x64_1_0_0_1_n_n.rhsNonContracting by decide)]
  rfl

theorem d1_row (j : S10000x1.Idx) (k : dot_S10000x64_S64x1_S10000x1_1_0_0_1_n_n.contr.Idx) :
    (dot_S10000x64_S64x1_S10000x1_1_0_0_1_n_n.lhsIdx j k 0).val = (j 0).val := by
  unfold DotDims.lhsIdx
  rw [dif_neg (show ¬(0 : Fin S10000x64.rank) ∈ dot_S10000x64_S64x1_S10000x1_1_0_0_1_n_n.lhsBatch by decide),
    dif_pos (show (0 : Fin S10000x64.rank) ∈ dot_S10000x64_S64x1_S10000x1_1_0_0_1_n_n.lhsNonContracting by decide)]
  rfl

theorem d1_col (j : S10000x1.Idx) (k : dot_S10000x64_S64x1_S10000x1_1_0_0_1_n_n.contr.Idx) :
    (dot_S10000x64_S64x1_S10000x1_1_0_0_1_n_n.rhsIdx j k 1).val = (j 1).val := by
  unfold DotDims.rhsIdx
  rw [dif_neg (show ¬(1 : Fin S64x1.rank) ∈ dot_S10000x64_S64x1_S10000x1_1_0_0_1_n_n.rhsBatch by decide),
    dif_pos (show (1 : Fin S64x1.rank) ∈ dot_S10000x64_S64x1_S10000x1_1_0_0_1_n_n.rhsNonContracting by decide)]
  rfl

/-! ## One layer of the block, read in row `r` -/

/-- A 64-wide layer: activations times weights into a zero accumulator, plus the one-row bias over the rows. Row `r`
    of the result is the affine layer of row `r` of the activations. -/
theorem layer64_row (A : FVec Ideal S10000x64 .bf16) (W : Vec Ideal S64x64 .f32) (b : FVec Ideal S1x64 .f32) (r : Fin 10000) :
    (fun j : Fin 64 => addf (matmul dot_S10000x64_S64x64_S10000x64_1_0_0_1_n_n none A (truncf .bf16 W bitsLt_bf16_f32)
        (constant S10000x64 .f32 0x00000000#32)) (broadcastTo S10000x64 b broadcasts_S1x64_S10000x64) (ix2 r j))
      = affine (fun k => A (ix2 r k)) (fun k j => W (ix2 k j)) (fun j => b (ix2 (0 : Fin 1) j)) := by
  funext j
  unfold affine
  exact congrArg₂ (· + ·)
    (Cert.LibPlainDot.matmul_zero_apply dot_S10000x64_S64x64_S10000x64_1_0_0_1_n_n rfl rfl rfl rfl d64_row d64_col none A
      (truncf .bf16 W bitsLt_bf16_f32) r j)
    (broadcastTo_1b_ab_apply b broadcasts_S1x64_S10000x64 r j)

/-- The last layer, 64 inputs to one output. -/
theorem layer1_row (A : FVec Ideal S10000x64 .bf16) (W : Vec Ideal S64x1 .f32) (b : FVec Ideal S1x1 .f32) (r : Fin 10000) :
    (fun j : Fin 1 => addf (matmul dot_S10000x64_S64x1_S10000x1_1_0_0_1_n_n none A (truncf .bf16 W bitsLt_bf16_f32)
        (constant S10000x1 .f32 0x00000000#32)) (broadcastTo S10000x1 b broadcasts_S1x1_S10000x1) (ix2 r j))
      = affine (fun k => A (ix2 r k)) (fun k j => W (ix2 k j)) (fun j => b (ix2 (0 : Fin 1) j)) := by
  funext j
  unfold affine
  exact congrArg₂ (· + ·)
    (Cert.LibPlainDot.matmul_zero_apply dot_S10000x64_S64x1_S10000x1_1_0_0_1_n_n rfl rfl rfl rfl d1_row d1_col none A
      (truncf .bf16 W bitsLt_bf16_f32) r j)
    (broadcastTo_1b_ab_apply b broadcasts_S1x1_S10000x1 r j)

/-- The first layer: the latent block times the first 64 weight rows plus the 6-wide block times the last 6, plus the bias. -/
theorem layer0_row (A : FVec Ideal S10000x64 .bf16) (B : FVec Ideal S10000x6 .bf16) (Wa : Vec Ideal S64x64 .f32) (Wb : Vec Ideal S6x64 .f32)
    (b : FVec Ideal S1x64 .f32) (r : Fin 10000) :
    (fun j : Fin 64 => addf (addf
        (matmul dot_S10000x64_S64x64_S10000x64_1_0_0_1_n_n none A (truncf .bf16 Wa bitsLt_bf16_f32) (constant S10000x64 .f32 0x00000000#32))
        (matmul dot_S10000x6_S6x64_S10000x64_1_0_0_1_n_n none B (truncf .bf16 Wb bitsLt_bf16_f32) (constant S10000x64 .f32 0x00000000#32)))
        (broadcastTo S10000x64 b broadcasts_S1x64_S10000x64) (ix2 r j))
      = affineSplit (fun k => A (ix2 r k)) (fun k => B (ix2 r k)) (fun k j => Wa (ix2 k j)) (fun k j => Wb (ix2 k j))
          (fun j => b (ix2 (0 : Fin 1) j)) := by
  funext j
  unfold affineSplit
  exact congrArg₂ (· + ·)
    (congrArg₂ (· + ·)
      (Cert.LibPlainDot.matmul_zero_apply dot_S10000x64_S64x64_S10000x64_1_0_0_1_n_n rfl rfl rfl rfl d64_row d64_col none A
        (truncf .bf16 Wa bitsLt_bf16_f32) r j)
      (Cert.LibPlainDot.matmul_zero_apply dot_S10000x6_S6x64_S10000x64_1_0_0_1_n_n rfl rfl rfl rfl d6_row d6_col none B
        (truncf .bf16 Wb bitsLt_bf16_f32) r j))
    (broadcastTo_1b_ab_apply b broadcasts_S1x64_S10000x64 r j)

/-- The rectifier against a splat of the zero word, then the change of format: row `r` is the rectified row. -/
theorem rect_row (X : FVec Ideal S10000x64 .f32) (r : Fin 10000) :
    (fun k : Fin 64 => (truncf .bf16 (maximumf X (broadcast S10000x64 (Scalar.ofBits (F := Ideal) .f32 0x00000000#32))) bitsLt_bf16_f32 :
        FVec Ideal S10000x64 .bf16) (ix2 r k)) = rect (fun k => X (ix2 r k)) := by
  funext k
  unfold rect
  show max (X (ix2 r k)) (Ideal.ofBits .f32 0x00000000#32) = _
  rw [Ideal.ofBits_zero_f32]

/-! ## The whole body, read in row `r` -/

/-- Row `r` of what the body stores is the per-edge network of row `r` of the two input blocks and of the weights and
    one-row biases: the first layer from the two partial products, then rectifier, layer, rectifier, layer, last layer. -/
theorem pay_row (x0 : Vec Ideal S10000x64 .bf16) (x1 : Vec Ideal S10000x6 .bf16) (x2 : Vec Ideal S64x64 .f32) (x3 : Vec Ideal S6x64 .f32)
    (x4 : Vec Ideal S1x64 .f32) (x5 : Vec Ideal S64x64 .f32) (x6 : Vec Ideal S1x64 .f32) (x7 : Vec Ideal S64x64 .f32)
    (x8 : Vec Ideal S1x64 .f32) (x9 : Vec Ideal S64x1 .f32) (x10 : Vec Ideal S1x1 .f32) (r : Fin 10000) :
    Gen.k0_pay1 (F := Ideal) (Gen.k0_pay2 x0 x1 x2 x3 x4 x5 x6 x7) (Gen.k0_pay3 x8) x9 x10 (ix2 r (0 : Fin 1))
      = rest (affineSplit (fun k => x0 (ix2 r k)) (fun k => x1 (ix2 r k)) (fun k j => x2 (ix2 k j)) (fun k j => x3 (ix2 k j))
            (fun j => x4 (ix2 (0 : Fin 1) j)))
          (fun k j => x5 (ix2 k j)) (fun j => x6 (ix2 (0 : Fin 1) j)) (fun k j => x7 (ix2 k j)) (fun j => x8 (ix2 (0 : Fin 1) j))
          (fun k j => x9 (ix2 k j)) (fun j => x10 (ix2 (0 : Fin 1) j)) := by
  unfold rest Gen.k0_pay1 Gen.k0_pay2 Gen.k0_pay3
  simp only [shapeCast_self]
  refine (congrFun (layer1_row _ x9 x10 r) (0 : Fin 1)).trans ?_
  refine congrArg (fun a => affine a _ _ (0 : Fin 1)) ?_
  refine (layer64_row _ x7 x8 r).trans ?_
  refine congrArg (fun a => affine a _ _) ?_
  refine (rect_row _ r).trans ?_
  refine congrArg rect ?_
  refine (layer64_row _ x5 x6 r).trans ?_
  refine congrArg (fun a => affine a _ _) ?_
  refine (rect_row _ r).trans ?_
  refine congrArg rect ?_
  exact layer0_row x0 x1 x2 x3 x4 r

end Cert.KernelIdeal.Row

end
-- ==== Proof.KernelArr.lean ====
/-
  From the blocks to the whole output array of the region.

  The region runs the body at 150 points.  At point `t` the two edge-indexed inputs are staged as rows
  `t·10000 … t·10000 + 9999` of their arrays, the weights and one-row biases whole, and the 10000 × 1 block the body
  leaves is written back to rows `t·10000 … t·10000 + 9999` of the 1500000 × 1 output.  Row `r` of the block is the
  per-edge network of row `r` of the staged inputs, that is, of edge `t·10000 + r`; the 150 blocks tile the output, each
  row `e` lying in the block of point `e / 10000`.  So the output array after the region holds at `(e, 0)` the per-edge
  network of row `e` of the two input arrays as the region finds them.
-/
import proofs.«159156_j79121887527504_2_alg».proof.Proof.Gen.KernelIdeal.Frame
import proofs.«159156_j79121887527504_2_alg».proof.Proof.KernelRow
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.EdgeNet
open Idealize.ShloMosaic.Pipeline (Dat)

variable (m : (ℓ : Loc nD τ sig) → Buf (Elt Ideal) ℓ)

/-- The edge (the row) of an index of the 1500000 × 1 output. -/
abbrev edge (i : S1500000x1.Idx) : Fin 1500000 := ⟨(i 0).val, (i 0).isLt⟩

/-- The output array as one function of the arrays the region finds: at `(e, 0)`, the per-edge network of row `e`. -/
def netArr (lat : Vec Ideal S1500000x64 .bf16) (pd : Vec Ideal S1500000x6 .bf16) (wa : Vec Ideal S64x64 .f32) (wb : Vec Ideal S6x64 .f32)
    (b0 : Vec Ideal S1x64 .f32) (w1 : Vec Ideal S64x64 .f32) (b1 : Vec Ideal S1x64 .f32) (w2 : Vec Ideal S64x64 .f32)
    (b2 : Vec Ideal S1x64 .f32) (wo : Vec Ideal S64x1 .f32) (bo : Vec Ideal S1x1 .f32) : Vec Ideal S1500000x1 .f32 := fun i =>
  rest (affineSplit (fun k => lat (ix2 (edge i) k)) (fun k => pd (ix2 (edge i) k)) (fun k j => wa (ix2 k j)) (fun k j => wb (ix2 k j))
      (fun j => b0 (ix2 (0 : Fin 1) j)))
    (fun k j => w1 (ix2 k j)) (fun j => b1 (ix2 (0 : Fin 1) j)) (fun k j => w2 (ix2 k j)) (fun j => b2 (ix2 (0 : Fin 1) j))
    (fun k j => wo (ix2 k j)) (fun j => bo (ix2 (0 : Fin 1) j))

theorem hz : (![0, 0] : Fin 2 → Nat) = fun _ => 0 := funext fun a => by fin_cases a <;> rfl

/-- The printed index maps, decided once over the 150 points: the edge-indexed windows and the output sit at block row `t`,
    every other window at block (0, 0). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-- Row `r` of point `t`'s block is edge `t·10000 + r`. -/
abbrev erow (t : Fin cfg0.N) (r : Fin 10000) : Fin 1500000 :=
  ⟨t.val * 10000 + r.val, by have ht : t.val < 150 := t.isLt; have hr := r.isLt; omega⟩

/-- Block `t` of window 0: rows `t·10000 … t·10000 + 9999` of its array, all columns. -/
theorem blk0 (c : Dev nD) (t : Fin cfg0.N) (r : Fin 10000) (k : Fin 64) :
    iblk m c 0 t (ix2 r k) = V m c main_v11 (ix2 (erow t r) k) := by
  obtain ⟨e0a, e0b, e1a, e1b, e2a, e2b, e3a, e3b, e4a, e4b, e5a, e5b, e6a, e6b, e7a, e7b, e8a, e8b, e9a, e9b, e10a, e10b, e11a, e11b⟩ := idx_facts t
  show V m c main_v11 (((cfg0.win 0).blk t).view.emb (ix2 r k)) = _
  refine congrArg (V m c main_v11) ?_
  funext a; apply Fin.ext
  match a with
  | ⟨0, _⟩ => show win0_0.index t (0 : Fin 2) * 10000 + 1 * r.val = t.val * 10000 + r.val; omega
  | ⟨1, _⟩ => show win0_0.index t (1 : Fin 2) * 64 + 1 * k.val = k.val; omega

/-- Block `t` of window 1: rows `t·10000 … t·10000 + 9999` of its array, all columns. -/
theorem blk1 (c : Dev nD) (t : Fin cfg0.N) (r : Fin 10000) (k : Fin 6) :
    iblk m c 1 t (ix2 r k) = V m c main_v35 (ix2 (erow t r) k) := by
  obtain ⟨e0a, e0b, e1a, e1b, e2a, e2b, e3a, e3b, e4a, e4b, e5a, e5b, e6a, e6b, e7a, e7b, e8a, e8b, e9a, e9b, e10a, e10b, e11a, e11b⟩ := idx_facts t
  show V m c main_v35 (((cfg0.win 1).blk t).view.emb (ix2 r k)) = _
  refine congrArg (V m c main_v35) ?_
  funext a; apply Fin.ext
  match a with
  | ⟨0, _⟩ => show win0_1.index t (0 : Fin 2) * 10000 + 1 * r.val = t.val * 10000 + r.val; omega
  | ⟨1, _⟩ => show win0_1.index t (1 : Fin 2) * 6 + 1 * k.val = k.val; omega

/-- Window 2 stages its whole array at every point. -/
theorem blk2 (c : Dev nD) (t : Fin cfg0.N) (p : Fin 64) (q : Fin 64) :
    iblk m c 2 t (ix2 p q) = V m c main_v36 (ix2 p q) := by
  obtain ⟨e0a, e0b, e1a, e1b, e2a, e2b, e3a, e3b, e4a, e4b, e5a, e5b, e6a, e6b, e7a, e7b, e8a, e8b, e9a, e9b, e10a, e10b, e11a, e11b⟩ := idx_facts t
  show V m c main_v36 (((cfg0.win 2).blk t).view.emb (ix2 p q)) = _
  refine congrArg (V m c main_v36) ?_
  funext a; apply Fin.ext
  match a with
  | ⟨0, _⟩ => show win0_2.index t (0 : Fin 2) * 64 + 1 * p.val = p.val; omega
  | ⟨1, _⟩ => show win0_2.index t (1 : Fin 2) * 64 + 1 * q.val = q.val; omega

/-- Window 3 stages its whole array at every point. -/
theorem blk3 (c : Dev nD) (t : Fin cfg0.N) (p : Fin 6) (q : Fin 64) :
    iblk m c 3 t (ix2 p q) = V m c main_v37 (ix2 p q) := by
  obtain ⟨e0a, e0b, e1a, e1b, e2a, e2b, e3a, e3b, e4a, e4b, e5a, e5b, e6a, e6b, e7a, e7b, e8a, e8b, e9a, e9b, e10a, e10b, e11a, e11b⟩ := idx_facts t
  show V m c main_v37 (((cfg0.win 3).blk t).view.emb (ix2 p q)) = _
  refine congrArg (V m c main_v37) ?_
  funext a; apply Fin.ext
  match a with
  | ⟨0, _⟩ => show win0_3.index t (0 : Fin 2) * 6 + 1 * p.val = p.val; omega
  | ⟨1, _⟩ => show win0_3.index t (1 : Fin 2) * 64 + 1 * q.val = q.val; omega

/-- Window 4 stages its whole array at every point. -/
theorem blk4 (c : Dev nD) (t : Fin cfg0.N) (p : Fin 1) (q : Fin 64) :
    iblk m c 4 t (ix2 p q) = V m c main_v38 (ix2 p q) := by
  obtain ⟨e0a, e0b, e1a, e1b, e2a, e2b, e3a, e3b, e4a, e4b, e5a, e5b, e6a, e6b, e7a, e7b, e8a, e8b, e9a, e9b, e10a, e10b, e11a, e11b⟩ := idx_facts t
  show V m c main_v38 (((cfg0.win 4).blk t).view.emb (ix2 p q)) = _
  refine congrArg (V m c main_v38) ?_
  funext a; apply Fin.ext
  match a with
  | ⟨0, _⟩ => show win0_4.index t (0 : Fin 2) * 1 + 1 * p.val = p.val; omega
  | ⟨1, _⟩ => show win0_4.index t (1 : Fin 2) * 64 + 1 * q.val = q.val; omega

/-- Window 5 stages its whole array at every point. -/
theorem blk5 (c : Dev nD) (t : Fin cfg0.N) (p : Fin 64) (q : Fin 64) :
    iblk m c 5 t (ix2 p q) = V m c main_arg8 (ix2 p q) := by
  obtain ⟨e0a, e0b, e1a, e1b, e2a, e2b, e3a, e3b, e4a, e4b, e5a, e5b, e6a, e6b, e7a, e7b, e8a, e8b, e9a, e9b, e10a, e10b, e11a, e11b⟩ := idx_facts t
  show V m c main_arg8 (((cfg0.win 5).blk t).view.emb (ix2 p q)) = _
  refine congrArg (V m c main_arg8) ?_
  funext a; apply Fin.ext
  match a with
  | ⟨0, _⟩ => show win0_5.index t (0 : Fin 2) * 64 + 1 * p.val = p.val; omega
  | ⟨1, _⟩ => show win0_5.index t (1 : Fin 2) * 64 + 1 * q.val = q.val; omega

/-- Window 6 stages its whole array at every point. -/
theorem blk6 (c : Dev nD) (t : Fin cfg0.N) (p : Fin 1) (q : Fin 64) :
    iblk m c 6 t (ix2 p q) = V m c main_v39 (ix2 p q) := by
  obtain ⟨e0a, e0b, e1a, e1b, e2a, e2b, e3a, e3b, e4a, e4b, e5a, e5b, e6a, e6b, e7a, e7b, e8a, e8b, e9a, e9b, e10a, e10b, e11a, e11b⟩ := idx_facts t
  show V m c main_v39 (((cfg0.win 6).blk t).view.emb (ix2 p q)) = _
  refine congrArg (V m c main_v39) ?_
  funext a; apply Fin.ext
  match a with
  | ⟨0, _⟩ => show win0_6.index t (0 : Fin 2) * 1 + 1 * p.val = p.val; omega
  | ⟨1, _⟩ => show win0_6.index t (1 : Fin 2) * 64 + 1 * q.val = q.val; omega

/-- Window 7 stages its whole array at every point. -/
theorem blk7 (c : Dev nD) (t : Fin cfg0.N) (p : Fin 64) (q : Fin 64) :
    iblk m c 7 t (ix2 p q) = V m c main_arg10 (ix2 p q) := by
  obtain ⟨e0a, e0b, e1a, e1b, e2a, e2b, e3a, e3b, e4a, e4b, e5a, e5b, e6a, e6b, e7a, e7b, e8a, e8b, e9a, e9b, e10a, e10b, e11a, e11b⟩ := idx_facts t
  show V m c main_arg10 (((cfg0.win 7).blk t).view.emb (ix2 p q)) = _
  refine congrArg (V m c main_arg10) ?_
  funext a; apply Fin.ext
  match a with
  | ⟨0, _⟩ => show win0_7.index t (0 : Fin 2) * 64 + 1 * p.val = p.val; omega
  | ⟨1, _⟩ => show win0_7.index t (1 : Fin 2) * 64 + 1 * q.val = q.val; omega

/-- Window 8 stages its whole array at every point. -/
theorem blk8 (c : Dev nD) (t : Fin cfg0.N) (p : Fin 1) (q : Fin 64) :
    iblk m c 8 t (ix2 p q) = V m c main_v40 (ix2 p q) := by
  obtain ⟨e0a, e0b, e1a, e1b, e2a, e2b, e3a, e3b, e4a, e4b, e5a, e5b, e6a, e6b, e7a, e7b, e8a, e8b, e9a, e9b, e10a, e10b, e11a, e11b⟩ := idx_facts t
  show V m c main_v40 (((cfg0.win 8).blk t).view.emb (ix2 p q)) = _
  refine congrArg (V m c main_v40) ?_
  funext a; apply Fin.ext
  match a with
  | ⟨0, _⟩ => show win0_8.index t (0 : Fin 2) * 1 + 1 * p.val = p.val; omega
  | ⟨1, _⟩ => show win0_8.index t (1 : Fin 2) * 64 + 1 * q.val = q.val; omega

/-- Window 9 stages its whole array at every point. -/
theorem blk9 (c : Dev nD) (t : Fin cfg0.N) (p : Fin 64) (q : Fin 1) :
    iblk m c 9 t (ix2 p q) = V m c main_arg12 (ix2 p q) := by
  obtain ⟨e0a, e0b, e1a, e1b, e2a, e2b, e3a, e3b, e4a, e4b, e5a, e5b, e6a, e6b, e7a, e7b, e8a, e8b, e9a, e9b, e10a, e10b, e11a, e11b⟩ := idx_facts t
  show V m c main_arg12 (((cfg0.win 9).blk t).view.emb (ix2 p q)) = _
  refine congrArg (V m c main_arg12) ?_
  funext a; apply Fin.ext
  match a with
  | ⟨0, _⟩ => show win0_9.index t (0 : Fin 2) * 64 + 1 * p.val = p.val; omega
  | ⟨1, _⟩ => show win0_9.index t (1 : Fin 2) * 1 + 1 * q.val = q.val; omega

/-- Window 10 stages its whole array at every point. -/
theorem blk10 (c : Dev nD) (t : Fin cfg0.N) (p : Fin 1) (q : Fin 1) :
    iblk m c 10 t (ix2 p q) = V m c main_v41 (ix2 p q) := by
  obtain ⟨e0a, e0b, e1a, e1b, e2a, e2b, e3a, e3b, e4a, e4b, e5a, e5b, e6a, e6b, e7a, e7b, e8a, e8b, e9a, e9b, e10a, e10b, e11a, e11b⟩ := idx_facts t
  show V m c main_v41 (((cfg0.win 10).blk t).view.emb (ix2 p q)) = _
  refine congrArg (V m c main_v41) ?_
  funext a; apply Fin.ext
  match a with
  | ⟨0, _⟩ => show win0_10.index t (0 : Fin 2) * 1 + 1 * p.val = p.val; omega
  | ⟨1, _⟩ => show win0_10.index t (1 : Fin 2) * 1 + 1 * q.val = q.val; omega

/-- Where row `r` of point `t`'s output block lands: row `t·10000 + r` of the output array. -/
theorem out_emb (t : Fin cfg0.N) (r : Fin 10000) :
    ((cfg0.win 11).blk t).view.emb (ix2 r (0 : Fin 1)) = ix2 (erow t r) (0 : Fin 1) := by
  obtain ⟨e0a, e0b, e1a, e1b, e2a, e2b, e3a, e3b, e4a, e4b, e5a, e5b, e6a, e6b, e7a, e7b, e8a, e8b, e9a, e9b, e10a, e10b, e11a, e11b⟩ := idx_facts t
  funext a; apply Fin.ext
  match a with
  | ⟨0, _⟩ => show win0_11.index t (0 : Fin 2) * 10000 + 1 * r.val = t.val * 10000 + r.val; omega
  | ⟨1, _⟩ => show win0_11.index t (1 : Fin 2) * 1 + 1 * 0 = 0; omega

/-- What point `t` writes back is block `t` of `netArr` of the arrays as the region finds them. -/
theorem flushed_eq (c : Dev nD) (t : Fin cfg0.N) :
    (dats m 0 c).flushed 11 t = ((cfg0.win 11).blk t).view.read (Elt Ideal)
      (netArr (V m c main_v11) (V m c main_v35) (V m c main_v36) (V m c main_v37) (V m c main_v38) (V m c main_arg8) (V m c main_v39) (V m c main_arg10) (V m c main_v40) (V m c main_arg12) (V m c main_v41)) := by
  show (cfg0.win 11).cut (grid0.coords t) ((dats m 0 c).after 11 t) = _
  rw [after0_11]
  unfold out0_11
  rw [View.canon_unit_zero hz]
  simp only [View.ld_unit_zero (S := S10000x64) hz, View.ld_unit_zero (S := S10000x6) hz, View.ld_unit_zero (S := S64x64) hz,
    View.ld_unit_zero (S := S6x64) hz, View.ld_unit_zero (S := S1x64) hz, View.ld_unit_zero (S := S64x1) hz,
    View.ld_unit_zero (S := S1x1) hz]
  funext y
  obtain ⟨r, q, rfl⟩ : ∃ (r : Fin 10000) (q : Fin 1), y = ix2 r q := ⟨y 0, y 1, eq_ix2 y⟩
  obtain rfl : q = 0 := Subsingleton.elim _ _
  show k0_pay1 (F := Ideal) (k0_pay2 (iblk m c 0 t) (iblk m c 1 t) (iblk m c 2 t) (iblk m c 3 t) (iblk m c 4 t) (iblk m c 5 t) (iblk m c 6 t) (iblk m c 7 t))
      (k0_pay3 (iblk m c 8 t)) (iblk m c 9 t) (iblk m c 10 t) (ix2 r (0 : Fin 1))
    = netArr (V m c main_v11) (V m c main_v35) (V m c main_v36) (V m c main_v37) (V m c main_v38) (V m c main_arg8) (V m c main_v39) (V m c main_arg10) (V m c main_v40) (V m c main_arg12) (V m c main_v41) (((cfg0.win 11).blk t).view.emb (ix2 r (0 : Fin 1)))
  rw [out_emb t r]
  refine (Cert.KernelIdeal.Row.pay_row (iblk m c 0 t) (iblk m c 1 t) (iblk m c 2 t) (iblk m c 3 t) (iblk m c 4 t) (iblk m c 5 t) (iblk m c 6 t) (iblk m c 7 t) (iblk m c 8 t) (iblk m c 9 t) (iblk m c 10 t) r).trans ?_
  unfold netArr
  simp only [blk0 m c t, blk1 m c t, blk2 m c t, blk3 m c t, blk4 m c t, blk5 m c t, blk6 m c t, blk7 m c t, blk8 m c t, blk9 m c t, blk10 m c t]

/-- An index of the output array is in point `t`'s block iff each coordinate is in the block's range on its axis. -/
theorem mem_blk (t : Fin cfg0.N) (i : S1500000x1.Idx) :
    i ∈ ((cfg0.win 11).blk t).view.set ↔ ∀ a : Fin 2, win0_11.index t a * S10000x1.size a ≤ (i a).val ∧ (i a).val < win0_11.index t a * S10000x1.size a + S10000x1.size a := by
  show i ∈ ((View.whole main_v42).slice (win0_11.rect t)).set ↔ _
  rw [View.set_slice_whole, Rect.mem_set_unit]
  exact Iff.rfl

/-- The 150 blocks tile the output: row `e` is in the block of point `e / 10000`. -/
theorem cover (i : S1500000x1.Idx) : ∃ t : Fin cfg0.N, (cfg0.win 11).flush t = true ∧ i ∈ ((cfg0.win 11).blk t).view.set := by
  have h0 : (i 0).val < 1500000 := (i 0).isLt
  have h1 : (i 1).val < 1 := (i 1).isLt
  have hlt : (i 0).val / 10000 < 150 := by omega
  let t : Fin cfg0.N := ⟨(i 0).val / 10000, hlt⟩
  have htv : t.val = (i 0).val / 10000 := rfl
  refine ⟨t, flush0_11 t, ?_⟩
  rw [mem_blk]
  obtain ⟨e0a, e0b, e1a, e1b, e2a, e2b, e3a, e3b, e4a, e4b, e5a, e5b, e6a, e6b, e7a, e7b, e8a, e8b, e9a, e9b, e10a, e10b, e11a, e11b⟩ := idx_facts t
  intro a
  match a with
  | ⟨0, _⟩ => show win0_11.index t (0 : Fin 2) * 10000 ≤ (i 0).val ∧ (i 0).val < win0_11.index t (0 : Fin 2) * 10000 + 10000; omega
  | ⟨1, _⟩ => show win0_11.index t (1 : Fin 2) * 1 ≤ (i 1).val ∧ (i 1).val < win0_11.index t (1 : Fin 2) * 1 + 1; omega

/-- The output array after the region. -/
theorem final (c : Dev nD) : (dats m 0 c).arrAt 11 cfg0.N = netArr (V m c main_v11) (V m c main_v35) (V m c main_v36) (V m c main_v37) (V m c main_v38) (V m c main_arg8) (V m c main_v39) (V m c main_arg10) (V m c main_v40) (V m c main_arg12) (V m c main_v41) :=
  (dats m 0 c).arrAt_eq_of_cover 11 _ (fun t _ => flushed_eq m c t) cover

end Cert.KernelIdeal.Arr

end
-- ==== Proof.LibRows.lean ====
/-
  Two facts about one-row arrays, over literal lengths.

  A vector of length K reshaped to a 1 × K array holds, at column k of its one row, the vector's entry k; and a
  splat of the zero word holds the real number zero at every index.
-/
import Idealize.ShloMosaic.PureOps.Ideal
import Idealize.ShloMosaic.PureOps.Ideal.Laws
import Idealize.ShloMosaic.Lib.Pipeline.Value
import Idealize.ShloMosaic.Lib.ValueIdx

noncomputable section

namespace Cert.LibRows

open Idealize.ShloMosaic Idealize.ShloMosaic.ValueIdx

/-- A vector reshaped to one row, read in that row: entry `k` of the vector. -/
theorem row_apply {K : Nat} (v : FVec Ideal ⟨1, ![K]⟩ .f32) (h : (⟨1, ![K]⟩ : Shape).ShapeCasts ⟨2, ![1, K]⟩) (k : Fin K) :
    shapeCast (⟨2, ![1, K]⟩ : Shape) v h (ix2 (0 : Fin 1) k) = v (ix1 k) := by
  refine (shapeCast_addUnit_apply ![K] v h (ix2 (0 : Fin 1) k)).trans (congrArg v ?_)
  funext a; match a with | ⟨0, _⟩ => rfl

/-- A splat of the zero word over a vector's shape, read anywhere: the real number zero. -/
theorem zeros_apply {K : Nat} (h : (⟨0, ![]⟩ : Shape).BroadcastsInDim ⟨1, ![K]⟩ ![]) (j : (⟨1, ![K]⟩ : Shape).Idx) :
    broadcastInDim (⟨1, ![K]⟩ : Shape) ![] h (constant (F := Ideal) ⟨0, ![]⟩ .f32 0x00000000#32) j = 0 := by
  rw [broadcastInDim_apply ![] h _ j ix0 (fun a => a.elim0)]
  exact Ideal.ofBits_zero_f32

/-- The zero vector reshaped to one row is zero in every column. -/
theorem zero_row_apply {K : Nat} (hb : (⟨0, ![]⟩ : Shape).BroadcastsInDim ⟨1, ![K]⟩ ![])
    (h : (⟨1, ![K]⟩ : Shape).ShapeCasts ⟨2, ![1, K]⟩) (k : Fin K) :
    shapeCast (⟨2, ![1, K]⟩ : Shape) (broadcastInDim (⟨1, ![K]⟩ : Shape) ![] hb (constant (F := Ideal) ⟨0, ![]⟩ .f32 0x00000000#32)) h
      (ix2 (0 : Fin 1) k) = 0 := by
  rw [row_apply]; exact zeros_apply hb _

end Cert.LibRows

end
-- ==== Proof.Bridge.lean ====
/-
  The kernel's value and the reference's value are one function of the arguments.

  Host side before the region: the kernel gathers the same rows as the reference (the change of float format before the
  gather is the identity on extended reals), joins relative positions and directions into a 6-wide array, and cuts the
  70 × 64 first-layer weights into their first 64 and last 6 rows; the bias vectors become one-row arrays.  So row `e` of the
  kernel's two edge-indexed inputs is feature row `e` of the reference split after its 64th entry, and the kernel's two
  weight pieces are the reference's weight rows split the same way.  With the sum over 70 indices split into 64 + 6 the first
  layers agree, and the remaining layers are the same arithmetic.  After the region both programs take the same mean per
  target point of the 1500000 edge values; that part is one function applied to equal arrays.
-/
import proofs.«159156_j79121887527504_2_alg».proof.Proof.KernelArr
import proofs.«159156_j79121887527504_2_alg».proof.Proof.RefNet
import proofs.«159156_j79121887527504_2_alg».proof.Proof.LibRows
import Idealize.ShloMosaic.Lib.StableHlo.Run
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen Cert.EdgeNet
open Idealize.ShloMosaic.Pipeline (Dat)

/-! ## The feature array split after its 64th column -/

/-- Columns 0–63 of the feature array are the latent piece. -/
theorem feat_lat (L : FVec Ideal S1500000x64 .f32) (Pr Dr : FVec Ideal S1500000x3 .f32) (e : Fin 1500000) (k : Fin 64) :
    Cert.ReferenceIdeal.Net.feat (F := Ideal) L Pr Dr (ix2 e (Fin.castAdd 6 k)) = L (ix2 e k) := by
  unfold Cert.ReferenceIdeal.Net.feat
  exact concatenate_apply_piece _ _ _ (ix2 e (Fin.castAdd 6 k)) 0 (by show (0 : ℕ) < 3; omega) _ L rfl rfl 0 rfl (ix2 e k)
    (fun b hb => by match b with
      | ⟨0, _⟩ => rfl
      | ⟨1, _⟩ => exact absurd rfl hb)
    (by show 0 + k.val = k.val; omega)

/-- Columns 64–69 of the feature array are the 6-wide join of the relative positions and the directions. -/
theorem feat_pd (L : FVec Ideal S1500000x64 .f32) (Pr Dr : FVec Ideal S1500000x3 .f32) (e : Fin 1500000) (k : Fin 6) :
    Cert.ReferenceIdeal.Net.feat (F := Ideal) L Pr Dr (ix2 e (Fin.natAdd 64 k))
      = concatenate S1500000x6 1 [⟨S1500000x3, Pr⟩, ⟨S1500000x3, Dr⟩] concatenates_S1500000x3_S1500000x3_S1500000x6_d1 (ix2 e k) := by
  unfold Cert.ReferenceIdeal.Net.feat
  by_cases hk : k.val < 3
  · refine (concatenate_apply_piece _ _ _ (ix2 e (Fin.natAdd 64 k)) 1 (by show (1 : ℕ) < 3; omega) _ Pr rfl rfl 64 rfl (ix2 e ⟨k.val, hk⟩)
      (fun b hb => by match b with
        | ⟨0, _⟩ => rfl
        | ⟨1, _⟩ => exact absurd rfl hb)
      (by show 64 + k.val = 64 + k.val; rfl)).trans ?_
    exact (concatenate_pair_apply_left _ Pr Dr _ (ix2 e k) rfl (ix2 e ⟨k.val, hk⟩)
      (fun b => by match b with
        | ⟨0, _⟩ => rfl
        | ⟨1, _⟩ => rfl)).symm
  · have hk6 := k.isLt
    have hk' : k.val - 3 < 3 := by omega
    refine (concatenate_apply_piece _ _ _ (ix2 e (Fin.natAdd 64 k)) 2 (by show (2 : ℕ) < 3; omega) _ Dr rfl rfl 67 rfl (ix2 e ⟨k.val - 3, hk'⟩)
      (fun b hb => by match b with
        | ⟨0, _⟩ => rfl
        | ⟨1, _⟩ => exact absurd rfl hb)
      (by show 67 + (k.val - 3) = 64 + k.val; omega)).trans ?_
    exact (concatenate_pair_apply_right _ Pr Dr _ (ix2 e k) rfl rfl (ix2 e ⟨k.val - 3, hk'⟩)
      (fun b hb => by match b with
        | ⟨0, _⟩ => rfl
        | ⟨1, _⟩ => exact absurd rfl hb)
      (by show (k.val - 3) + 3 = k.val; omega)).symm

/-! ## Rows that agree give equal values -/

/-- If row `e` of the kernel's inputs is feature row `e` split after column 64, its weight pieces are the weight rows split
    the same way, and the one-row biases hold the bias vectors, then the kernel's output at (e, 0) is the reference's. -/
theorem rows_eq (lat : Vec Ideal S1500000x64 .bf16) (pd : Vec Ideal S1500000x6 .bf16) (wa : Vec Ideal S64x64 .f32) (wb : Vec Ideal S6x64 .f32)
    (b0 : Vec Ideal S1x64 .f32) (w1 : Vec Ideal S64x64 .f32) (b1 : Vec Ideal S1x64 .f32) (w2 : Vec Ideal S64x64 .f32)
    (b2 : Vec Ideal S1x64 .f32) (wo : Vec Ideal S64x1 .f32) (bo : Vec Ideal S1x1 .f32)
    (X : FVec Ideal Cert.ReferenceIdeal.S1500000x70 .f32) (a6 : FVec Ideal S70x64 .f32) (a7 : FVec Ideal S64 .f32) (a8 : FVec Ideal S64x64 .f32)
    (a9 : FVec Ideal S64 .f32) (a10 : FVec Ideal S64x64 .f32) (a11 : FVec Ideal S64 .f32) (a12 : FVec Ideal S64x1 .f32) (a13 : FVec Ideal S1 .f32)
    (e : Fin 1500000)
    (h1 : ∀ k : Fin 64, lat (ix2 e k) = X (ix2 e (Fin.castAdd 6 k)))
    (h2 : ∀ k : Fin 6, pd (ix2 e k) = X (ix2 e (Fin.natAdd 64 k)))
    (h3 : ∀ (k : Fin 64) (j : Fin 64), wa (ix2 k j) = a6 (ix2 (Fin.castAdd 6 k) j))
    (h4 : ∀ (k : Fin 6) (j : Fin 64), wb (ix2 k j) = a6 (ix2 (Fin.natAdd 64 k) j))
    (h5 : ∀ j : Fin 64, b0 (ix2 (0 : Fin 1) j) = a7 (ix1 j))
    (h6 : ∀ (k j : Fin 64), w1 (ix2 k j) = a8 (ix2 k j))
    (h7 : ∀ j : Fin 64, b1 (ix2 (0 : Fin 1) j) = a9 (ix1 j))
    (h8 : ∀ (k j : Fin 64), w2 (ix2 k j) = a10 (ix2 k j))
    (h9 : ∀ j : Fin 64, b2 (ix2 (0 : Fin 1) j) = a11 (ix1 j))
    (h10 : ∀ (k : Fin 64) (j : Fin 1), wo (ix2 k j) = a12 (ix2 k j))
    (h11 : ∀ j : Fin 1, bo (ix2 (0 : Fin 1) j) = a13 (ix1 j)) :
    Cert.KernelIdeal.Arr.netArr lat pd wa wb b0 w1 b1 w2 b2 wo bo (ix2 e (0 : Fin 1))
      = Cert.ReferenceIdeal.Net.net (F := Ideal) X a6 a7 a8 a9 a10 a11 a12 a13 (ix2 e (0 : Fin 1)) := by
  rw [Cert.ReferenceIdeal.Net.net_row]
  show rest (affineSplit (fun k => lat (ix2 e k)) (fun k => pd (ix2 e k)) (fun k j => wa (ix2 k j)) (fun k j => wb (ix2 k j))
      (fun j => b0 (ix2 (0 : Fin 1) j)))
    (fun k j => w1 (ix2 k j)) (fun j => b1 (ix2 (0 : Fin 1) j)) (fun k j => w2 (ix2 k j)) (fun j => b2 (ix2 (0 : Fin 1) j))
    (fun k j => wo (ix2 k j)) (fun j => bo (ix2 (0 : Fin 1) j)) = _
  simp only [h1, h2, h3, h4, h5, h6, h7, h8, h9, h10, h11]
  exact (congrArg (fun H => rest H _ _ _ _ _ _)
    (affine_eq_affineSplit (A := 64) (B := 6) (fun k => X (ix2 e k)) (fun k j => a6 (ix2 k j)) (fun j => a7 (ix1 j)))).symm

end Cert.Bridge

end
-- ==== Proof.KernelTail.lean ====
/-
  The host operations after the region, as one function.

  After the region the kernel program reshapes the 1500000 × 1 edge values to a vector, scatter-adds them (and a vector of
  ones) into 200000 target slots by the target indices, divides the sums by the counts raised to at least one, and selects
  the fill value where a count is not positive.  This module names that composite `meanTail` and reads the program's result
  buffer as `meanTail` of the region's output array and the target-index array as the region leaves them — for any float
  instance, since nothing here depends on what the float operations are.
-/
import proofs.«159156_j79121887527504_2_alg».proof.Proof.Gen.KernelIdeal.Frame
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

variable {F : FTy → Type} [FloatOps F] (m : (ℓ : Loc nD τ sig) → Buf (Elt F) ℓ)

/-- The mean per target point of the edge values `Y` over the edges with that target index `a4`, the fill value where a
    point has no edge. -/
def meanTail (Y : (⟨S1500000x1, .f32⟩ : BufTy).Contents (Elt F)) (a4 : (⟨S1500000, .i32⟩ : BufTy).Contents (Elt F)) :
    (⟨S200000, .f32⟩ : BufTy).Contents (Elt F) :=
  select (cmpf (F := F) .ogt (Host.scatterAdd (F := F) scatter_S200000_S1500000x1_S1500000_n_0_0_1 (broadcastInDim S200000 ![] bcast_S_S200000 (constant (F := F) S_ .f32 0x00000000#32)) (broadcastInDim S1500000x1 ![0] bcast_S1500000_S1500000x1_0 a4) (broadcastInDim S1500000 ![] bcast_S_S1500000 (constant (F := F) S_ .f32 0x3F800000#32))) (broadcastInDim S200000 ![] bcast_S_S200000 (constant (F := F) S_ .f32 0x00000000#32))) (Host.divf (F := F) (Host.scatterAdd (F := F) scatter_S200000_S1500000x1_S1500000_n_0_0_1 (broadcastInDim S200000 ![] bcast_S_S200000 (constant (F := F) S_ .f32 0x00000000#32)) (broadcastInDim S1500000x1 ![0] bcast_S1500000_S1500000x1_0 a4) (shapeCast S1500000 Y shapeCasts_S1500000x1_S1500000)) (maximumf (Host.scatterAdd (F := F) scatter_S200000_S1500000x1_S1500000_n_0_0_1 (broadcastInDim S200000 ![] bcast_S_S200000 (constant (F := F) S_ .f32 0x00000000#32)) (broadcastInDim S1500000x1 ![0] bcast_S1500000_S1500000x1_0 a4) (broadcastInDim S1500000 ![] bcast_S_S1500000 (constant (F := F) S_ .f32 0x3F800000#32))) (broadcastInDim S200000 ![] bcast_S_S200000 (constant (F := F) S_ .f32 0x3F800000#32)))) (broadcastInDim S200000 ![] bcast_S_S200000 (id (constant (F := F) S_ .f32 0xCB189680#32)))

set_option maxHeartbeats 40000000 in
/-- The result buffer after the host operations that follow the region. -/
theorem result_eq (c : Dev nD) : Pipeline.afterTail₀ cfgs (dats m) 0 (V0 m) [hostOps1, hostOps1_1] c main_v56
    = meanTail (F := F) (Pipeline.withArrays (cfgs 0).spec c (V0 m c) (fun w => (dats m 0 c).arrAt w (cfgs 0).N) (Proc.devRef .tc main_v42))
        (Pipeline.withArrays (cfgs 0).spec c (V0 m c) (fun w => (dats m 0 c).arrAt w (cfgs 0).N) (Proc.devRef .tc main_arg4)) := by
  unfold Pipeline.afterTail₀
  simp only [hostOps1, hostOps1_1, List.flatten_cons, List.flatten_nil, List.append_nil, List.cons_append, List.nil_append]
  after_results_simp
  unfold meanTail
  rfl

end Cert.KernelIdeal.Tail

end
-- ==== Proof.KernelValue.lean ====
/-
  The kernel program's run, read: its result is the mean, per target point, of the per-edge network's values.

  Before the region the host operations leave, in the arrays the region stages, the gathered latent rows, the 6-wide join of
  relative positions and directions, the two pieces of the first-layer weights and the bias vectors as one-row arrays; the
  region's output array is then the per-edge network of these, equal entry by entry to the reference's layers of its feature
  array; and the host operations after the region apply to it the same mean per target point as the reference does.
-/
import proofs.«159156_j79121887527504_2_alg».proof.Proof.Bridge
import proofs.«159156_j79121887527504_2_alg».proof.Proof.KernelTail

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen Cert.EdgeNet
open Idealize.ShloMosaic.Pipeline (Dat)

variable (m : (ℓ : Loc nD τ sig) → Buf (Elt Ideal) ℓ) (ρ : Dev nD → PrngReg)

/-! ## What the host operations before the region leave in the staged arrays -/

set_option maxHeartbeats 40000000 in
theorem V_lat (c : Dev nD) : V m c main_v11 = Cert.ReferenceIdeal.Net.lat (F := Ideal) (m ((c.tc : Thread nD τ).loc main_arg1)) (m ((c.tc : Thread nD τ).loc main_arg5)) := by
  dsimp only [V, V0]
  simp only [hostOps0, List.flatten_cons, List.flatten_nil, List.append_nil, List.cons_append, List.nil_append]
  after_results_simp
  rfl

set_option maxHeartbeats 40000000 in
theorem V_pd (c : Dev nD) : V m c main_v35
    = concatenate S1500000x6 1 [⟨S1500000x3, Cert.ReferenceIdeal.Net.prel (F := Ideal) (m ((c.tc : Thread nD τ).loc main_arg0)) (m ((c.tc : Thread nD τ).loc main_arg3)) (m ((c.tc : Thread nD τ).loc main_arg4)) (m ((c.tc : Thread nD τ).loc main_arg5))⟩,
        ⟨S1500000x3, Cert.ReferenceIdeal.Net.dirs (F := Ideal) (m ((c.tc : Thread nD τ).loc main_arg2)) (m ((c.tc : Thread nD τ).loc main_arg5))⟩] concatenates_S1500000x3_S1500000x3_S1500000x6_d1 := by
  dsimp only [V, V0]
  simp only [hostOps0, List.flatten_cons, List.flatten_nil, List.append_nil, List.cons_append, List.nil_append]
  after_results_simp
  rfl

set_option maxHeartbeats 40000000 in
theorem V_wa (c : Dev nD) : V m c main_v36 = extractStridedSlice S64x64 ![0, 0] (m ((c.tc : Thread nD τ).loc main_arg6)) slices_S70x64_S64x64_0_0 := by
  dsimp only [V, V0]
  simp only [hostOps0, List.flatten_cons, List.flatten_nil, List.append_nil, List.cons_append, List.nil_append]
  after_results_simp

set_option maxHeartbeats 40000000 in
theorem V_wb (c : Dev nD) : V m c main_v37 = extractStridedSlice S6x64 ![64, 0] (m ((c.tc : Thread nD τ).loc main_arg6)) slices_S70x64_S6x64_64_0 := by
  dsimp only [V, V0]
  simp only [hostOps0, List.flatten_cons, List.flatten_nil, List.append_nil, List.cons_append, List.nil_append]
  after_results_simp

set_option maxHeartbeats 40000000 in
theorem V_b0 (c : Dev nD) : V m c main_v38 = shapeCast S1x64 (m ((c.tc : Thread nD τ).loc main_arg7)) shapeCasts_S64_S1x64 := by
  dsimp only [V, V0]
  simp only [hostOps0, List.flatten_cons, List.flatten_nil, List.append_nil, List.cons_append, List.nil_append]
  after_results_simp
  rfl

set_option maxHeartbeats 40000000 in
theorem V_b1 (c : Dev nD) : V m c main_v39 = shapeCast S1x64 (m ((c.tc : Thread nD τ).loc main_arg9)) shapeCasts_S64_S1x64 := by
  dsimp only [V, V0]
  simp only [hostOps0, List.flatten_cons, List.flatten_nil, List.append_nil, List.cons_append, List.nil_append]
  after_results_simp
  rfl

set_option maxHeartbeats 40000000 in
theorem V_b2 (c : Dev nD) : V m c main_v40 = shapeCast S1x64 (m ((c.tc : Thread nD τ).loc main_arg11)) shapeCasts_S64_S1x64 := by
  dsimp only [V, V0]
  simp only [hostOps0, List.flatten_cons, List.flatten_nil, List.append_nil, List.cons_append, List.nil_append]
  after_results_simp
  rfl

set_option maxHeartbeats 40000000 in
theorem V_bo (c : Dev nD) : V m c main_v41 = shapeCast S1x1 (m ((c.tc : Thread nD τ).loc main_arg13)) shapeCasts_S1_S1x1 := by
  dsimp only [V, V0]
  simp only [hostOps0, List.flatten_cons, List.flatten_nil, List.append_nil, List.cons_append, List.nil_append]
  after_results_simp
  rfl

/-! ## The region's output array is the reference's layers of its features -/

theorem net_eq (c : Dev nD) :
    Cert.KernelIdeal.Arr.netArr (V m c main_v11) (V m c main_v35) (V m c main_v36) (V m c main_v37) (V m c main_v38) (V m c main_arg8) (V m c main_v39) (V m c main_arg10) (V m c main_v40) (V m c main_arg12) (V m c main_v41)
      = (Cert.ReferenceIdeal.Net.net (F := Ideal) (Cert.ReferenceIdeal.Net.feat (F := Ideal) (Cert.ReferenceIdeal.Net.lat (F := Ideal) (m ((c.tc : Thread nD τ).loc main_arg1)) (m ((c.tc : Thread nD τ).loc main_arg5))) (Cert.ReferenceIdeal.Net.prel (F := Ideal) (m ((c.tc : Thread nD τ).loc main_arg0)) (m ((c.tc : Thread nD τ).loc main_arg3)) (m ((c.tc : Thread nD τ).loc main_arg4)) (m ((c.tc : Thread nD τ).loc main_arg5))) (Cert.ReferenceIdeal.Net.dirs (F := Ideal) (m ((c.tc : Thread nD τ).loc main_arg2)) (m ((c.tc : Thread nD τ).loc main_arg5)))) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  funext i
  obtain ⟨e, q, rfl⟩ : ∃ (e : Fin 1500000) (q : Fin 1), i = ix2 e q := ⟨i 0, i 1, eq_ix2 i⟩
  obtain rfl : q = 0 := Subsingleton.elim _ _
  refine rows_eq _ _ _ _ _ _ _ _ _ _ _ _ _ _ _ _ _ _ _ _ e ?_ ?_ ?_ ?_ ?_ ?_ ?_ ?_ ?_ ?_ ?_
  · intro k; rw [V_lat m c]; exact (feat_lat _ _ _ e k).symm
  · intro k; rw [V_pd m c]; exact (feat_pd _ _ _ e k).symm
  · intro k j; rw [V_wa m c]
    exact extractStridedSlice_apply ![0, 0] _ slices_S70x64_S64x64_0_0 (ix2 k j) (ix2 (Fin.castAdd 6 k) j) (fun a => by
      match a with
      | ⟨0, _⟩ => show k.val = 0 + k.val; omega
      | ⟨1, _⟩ => show j.val = 0 + j.val; omega)
  · intro k j; rw [V_wb m c]
    exact extractStridedSlice_apply ![64, 0] _ slices_S70x64_S6x64_64_0 (ix2 k j) (ix2 (Fin.natAdd 64 k) j) (fun a => by
      match a with
      | ⟨0, _⟩ => show 64 + k.val = 64 + k.val; rfl
      | ⟨1, _⟩ => show j.val = 0 + j.val; omega)
  · intro j; rw [V_b0 m c]; exact Cert.LibRows.row_apply _ shapeCasts_S64_S1x64 j
  · intro k j; rw [V_main_arg8 m c]
  · intro j; rw [V_b1 m c]; exact Cert.LibRows.row_apply _ shapeCasts_S64_S1x64 j
  · intro k j; rw [V_main_arg10 m c]
  · intro j; rw [V_b2 m c]; exact Cert.LibRows.row_apply _ shapeCasts_S64_S1x64 j
  · intro k j; rw [V_main_arg12 m c]
  · intro j; rw [V_bo m c]; exact Cert.LibRows.row_apply _ shapeCasts_S1_S1x1 j

/-! ## The host operations after the region: the mean per target point -/

/-- The program's result as one function of the argument arrays. -/
def result (c : Dev nD) : (⟨S200000, .f32⟩ : BufTy).Contents (Elt Ideal) :=
  Cert.ReferenceIdeal.Net.tail (F := Ideal) (Cert.ReferenceIdeal.Net.net (F := Ideal) (Cert.ReferenceIdeal.Net.feat (F := Ideal) (Cert.ReferenceIdeal.Net.lat (F := Ideal) (m ((c.tc : Thread nD τ).loc main_arg1)) (m ((c.tc : Thread nD τ).loc main_arg5))) (Cert.ReferenceIdeal.Net.prel (F := Ideal) (m ((c.tc : Thread nD τ).loc main_arg0)) (m ((c.tc : Thread nD τ).loc main_arg3)) (m ((c.tc : Thread nD τ).loc main_arg4)) (m ((c.tc : Thread nD τ).loc main_arg5))) (Cert.ReferenceIdeal.Net.dirs (F := Ideal) (m ((c.tc : Thread nD τ).loc main_arg2)) (m ((c.tc : Thread nD τ).loc main_arg5)))) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg4))

/-- The kernel's copy of the mean and the reference's are one function: the same operations over equal dimension records. -/
theorem meanTail_eq (Y : (⟨S1500000x1, .f32⟩ : BufTy).Contents (Elt Ideal)) (a4 : (⟨S1500000, .i32⟩ : BufTy).Contents (Elt Ideal)) :
    Cert.KernelIdeal.Tail.meanTail (F := Ideal) Y a4 = Cert.ReferenceIdeal.Net.tail (F := Ideal) Y a4 := by
  unfold Cert.KernelIdeal.Tail.meanTail Cert.ReferenceIdeal.Net.tail
  rfl

set_option maxHeartbeats 40000000 in
theorem tail_eq (c : Dev nD) : Pipeline.afterTail₀ cfgs (dats m) 0 (V0 m) [hostOps1, hostOps1_1] c main_v56
    = Cert.ReferenceIdeal.Net.tail (F := Ideal) ((dats m 0 c).arrAt 11 cfg0.N) (m ((c.tc : Thread nD τ).loc main_arg4)) := by
  have hv42 : Pipeline.withArrays (cfgs 0).spec c (V0 m c) (fun w => (dats m 0 c).arrAt w (cfgs 0).N) (Proc.devRef .tc main_v42)
      = (dats m 0 c).arrAt 11 cfg0.N := Pipeline.withArrays_arr spec0 launch0.win.arr_inj c (V0 m c) _ 11
  have ha4 : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans
      (V_main_arg4 m c)
  refine (Cert.KernelIdeal.Tail.result_eq m c).trans ?_
  rw [hv42, ha4]
  exact meanTail_eq _ _

/-! ## The run -/

theorem run : θ_run defs (onTc (τ := τ) (main (F := Ideal))) ⟨m, fun _ => 0, ρ⟩ (fun r => ∀ c : Dev nD,
      r.2.mem ((c.tc : Thread nD τ).loc main_v56) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      ((h c).2 main_v56 (Pipeline.mem_restRefs_of main_v56 (by decide) (by decide))).trans
        ((tail_eq m c).trans (by rw [Cert.KernelIdeal.Arr.final m c, net_eq m c]; rfl)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      ((h c).1 5).trans (((dats m 0 c).arrAt_in 5 rfl _).trans ((A_eq m c 5).trans (V_main_arg8 m c))),
      (((h c).2 main_arg9 (Pipeline.mem_restRefs_of main_arg9 (by decide) (by decide))).trans (W_main_arg9 m (dats m) c)),
      ((h c).1 7).trans (((dats m 0 c).arrAt_in 7 rfl _).trans ((A_eq m c 7).trans (V_main_arg10 m c))),
      (((h c).2 main_arg11 (Pipeline.mem_restRefs_of main_arg11 (by decide) (by decide))).trans (W_main_arg11 m (dats m) c)),
      ((h c).1 9).trans (((dats m 0 c).arrAt_in 9 rfl _).trans ((A_eq m c 9).trans (V_main_arg12 m c))),
      (((h c).2 main_arg13 (Pipeline.mem_restRefs_of main_arg13 (by decide) (by decide))).trans (W_main_arg13 m (dats m) c))⟩)
    (run_main m ρ)

end Cert.Bridge

end
-- ==== Proof.lean ====
/-
  The kernel and its reference compute the same predictions at every target point, over the extended reals.

  Both programs take, for each of 1500000 edges, the latent row of the edge's source point, the position of its target point
  minus that of its source point, and the direction at its source point; pass this 70-entry feature row through four affine
  layers (a rectifier after the first two) to one number per edge; and average these numbers over the edges of each target
  point, a fixed fill value standing where a point has no edge.  The reference applies the first layer to the 70-entry row at
  once.  The kernel keeps the latent part and the 6-entry rest apart and adds the two partial products — the sum over 70
  indices is the sum over the first 64 plus the sum over the last 6 — and it evaluates the layers block by block, 10000 edges
  at a time, in narrower float formats that are the identity on extended reals.  Row by row the two networks are therefore
  one function of the arguments, and the averaging that follows is the same function of equal arrays.  No finiteness of the
  inputs is used: only commutativity and associativity of addition enter.

  Each program terminates without fault and leaves its arguments unchanged; the ideal pass rewrote no operation of the
  kernel, so the kernel's idealization is its own text read over the extended reals.
-/
import proofs.«159156_j79121887527504_2_alg».proof.Defs
import proofs.«159156_j79121887527504_2_alg».proof.Proof.Gen.Kernel
import proofs.«159156_j79121887527504_2_alg».proof.Proof.Gen.Kernel.Skeleton
import proofs.«159156_j79121887527504_2_alg».proof.Proof.Gen.Kernel.Launch
import proofs.«159156_j79121887527504_2_alg».proof.Proof.Gen.Kernel.Points
import proofs.«159156_j79121887527504_2_alg».proof.Proof.Gen.Kernel.Frame
import proofs.«159156_j79121887527504_2_alg».proof.Proof.Gen.KernelIdeal
import proofs.«159156_j79121887527504_2_alg».proof.Proof.Gen.KernelIdeal.Skeleton
import proofs.«159156_j79121887527504_2_alg».proof.Proof.Gen.KernelIdeal.Launch
import proofs.«159156_j79121887527504_2_alg».proof.Proof.Gen.KernelIdeal.Points
import proofs.«159156_j79121887527504_2_alg».proof.Proof.Gen.KernelIdeal.Frame
import proofs.«159156_j79121887527504_2_alg».proof.Proof.Gen.ReferenceIdeal
import proofs.«159156_j79121887527504_2_alg».proof.Proof.RefRunP
import proofs.«159156_j79121887527504_2_alg».proof.Proof.Gen.Pre_finite_inputs
import proofs.«159156_j79121887527504_2_alg».proof.Proof.RefNet
import proofs.«159156_j79121887527504_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run keeps the arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the mean per target point of the per-edge network's values: the kernel's run gives it from the
    kernel's arguments, the reference's run from its own, and the arguments agree. -/
theorem algebraic : Cert.algebraic_KernelIdeal_ReferenceIdeal := by
  intro m ρ m' ρ' _ hagree
  refine ⟨fun c => Cert.Bridge.result m c, Cert.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Net.res_eq, h0, h1, h2, h3, h4, h5, h6, h7, h8, h9, h10, h11, h12, h13]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
